-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S16384 : Shape := ⟨1, ![16384]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : FVec F S16384x2 .f32) (main_arg1 : IVec S16384 1) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  main_v3
-- ==== Kernel.lean ====
abbrev S16384x2 : Shape := ⟨2, ![16384, 2]⟩
abbrev S16384 : Shape := ⟨1, ![16384]⟩
abbrev S16384x1 : Shape := ⟨2, ![16384, 1]⟩
abbrev S_ : Shape := ⟨0, ![]⟩
abbrev S1x1 : Shape := ⟨2, ![1, 1]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1 : Shape := ⟨1, ![1]⟩

abbrev nBuf : Space → Nat
  | .hbm => 29
  | .vmem => 9
  | .smem => 0
  | _ => 0

abbrev bufTy : (tb : Table) → Fin (tcTables nBuf tb) → BufTy
  | .hbm, ⟨0, _⟩ => ⟨S16384x2, .f32⟩
  | .hbm, ⟨1, _⟩ => ⟨S16384, .i1⟩
  | .hbm, ⟨2, _⟩ => ⟨S16384x1, .f32⟩
  | .hbm, ⟨3, _⟩ => ⟨S16384, .f32⟩
  | .hbm, ⟨4, _⟩ => ⟨S16384x1, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1024, .f32⟩
  | .local _ .vmem, ⟨1, _⟩ => ⟨S1024, .f32⟩
  | .local _ .vmem, ⟨2, _⟩ => ⟨S1024, .f32⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1x1, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_call1_v0 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  slices_S16384x2_S16384x1_0_1 : S16384x2.Slices ![0, 1] S16384x1
  shapeCasts_S16384x1_S16384 : S16384x1.ShapeCasts S16384
  slices_S16384x2_S16384x1_0_0 : S16384x2.Slices ![0, 0] S16384x1
  bcast_S_S16384 : S_.BroadcastsInDim S16384 (![] : Fin 0 → Fin S16384.rank)
  reducesTo_S16384_S_d0 : S16384.ReducesTo [0] S_
  h_S_ : 0 < S_.numel
  inb_S1x1_S1x1_0_0 : ∀ a, (![0, 0] : Fin 2 → Nat) a + S1x1.size a ≤ S1x1.size a
  h_S1x1 : 0 < S1x1.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  shapeCasts_S1024_S1024x1 : S1024.ShapeCasts S1024x1
  broadcasts_S1x1024_S1024x1024 : S1x1024.Broadcasts S1024x1024
  broadcasts_S1024x1_S1024x1024 : S1024x1.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S16384.size a
  hwx0_0 : ∀ i : grid0.Coords, EltTy.bits .f32 = 32 ∨ (Rect.block (s := S16384) S1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S16384.size a
  hwx0_1 : ∀ i : grid0.Coords, EltTy.bits .f32 = 32 ∨ (Rect.block (s := S16384) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .f32 = 32 ∨ (Rect.block (s := S16384) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S16384.size a
  hwx0_3 : ∀ i : grid0.Coords, EltTy.bits .f32 = 32 ∨ (Rect.block (s := S16384) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v7) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2 : Shape := ⟨2, ![16384, 2]⟩
abbrev S16384 : Shape := ⟨1, ![16384]⟩
abbrev S16384x1 : Shape := ⟨2, ![16384, 1]⟩
abbrev S_ : Shape := ⟨0, ![]⟩
abbrev S1x16384 : Shape := ⟨2, ![1, 16384]⟩
abbrev S16384x16384 : Shape := ⟨2, ![16384, 16384]⟩

abbrev nBuf : Space → Nat
  | .hbm => 48
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S16384, .i1⟩
  | .hbm, ⟨2, _⟩ => ⟨S16384x1, .f32⟩
  | .hbm, ⟨3, _⟩ => ⟨S16384, .f32⟩
  | .hbm, ⟨4, _⟩ => ⟨S16384x1, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x16384, .f32⟩
  | .hbm, ⟨16, _⟩ => ⟨S16384x1, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S16384x1, .f32⟩
  | .hbm, ⟨21, _⟩ => ⟨S1x16384, .f32⟩
  | .hbm, ⟨22, _⟩ => ⟨S16384x16384, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S16384x16384, .f32⟩
  | .hbm, ⟨27, _⟩ => ⟨S_, .f32⟩
  | .hbm, ⟨28, _⟩ => ⟨S16384x16384, .f32⟩
  | .hbm, ⟨29, _⟩ => ⟨S16384x16384, .f32⟩
  | .hbm, ⟨30, _⟩ => ⟨S_, .f32⟩
  | .hbm, ⟨31, _⟩ => ⟨S16384x16384, .f32⟩
  | .hbm, ⟨32, _⟩ => ⟨S16384x16384, .f32⟩
  | .hbm, ⟨33, _⟩ => ⟨S16384x16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_cst_8 : Ref sig .tc := ⟨.hbm, 45, rfl⟩
abbrev main_call1_v0 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  slices_S16384x2_S16384x1_0_1 : S16384x2.Slices ![0, 1] S16384x1
  shapeCasts_S16384x1_S16384 : S16384x1.ShapeCasts S16384
  slices_S16384x2_S16384x1_0_0 : S16384x2.Slices ![0, 0] S16384x1
  bcast_S_S16384 : S_.BroadcastsInDim S16384 (![] : Fin 0 → Fin S16384.rank)
  reducesTo_S16384_S_d0 : S16384.ReducesTo [0] S_
  h_S_ : 0 < S_.numel
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_

variable [Facts₀]

class Facts : Prop extends Facts₀ where

variable [Facts]
-- ==== Proof.LibWholeBuffer.lean ====
/-
  Loads and stores through the rectangle that is a buffer's whole shape (all offsets zero).
  A vector load of the whole shape through a whole memref reads the memref's contents; after a sequence of
  stores whose LAST one fills the whole shape, the buffer reads that store's payload, whatever was stored or held
  before; and a whole-shape load issued after such stores reads that payload too. These are the three facts a
  kernel body that keeps an accumulator in a scratch buffer (load all, compute, store all) is read with.
-/
import Idealize.ShloMosaic.Lib.Pipeline.Frame
import Idealize.ShloMosaic.Lib.Pipeline.FrameBody
import Idealize.ShloMosaic.Lib.Pipeline.Value

namespace Idealize.ShloMosaic.WholeBuffer

variable {sig : RefSig} {Val : EltTy → Type} {κ : Kind} {sp : Space} {S : Shape} {e : EltTy}

/-- A load of the whole shape through a whole memref held at the raw contents that read `X` reads `X`. -/
theorem readAt_whole {m : Memref sig κ sp S e} (h : m.IsWhole) {off : Fin S.rank → ℕ} (hz : off = fun _ => 0)
    (inb : ∀ a, off a + S.size a ≤ S.size a) (X : S.Idx → Val e) :
    View.readAt Val m.view (Rect.unit off S.size inb).toLoadRect (h.unread X) = X := by
  rw [View.readAt_eq_ld, h.read_unread, View.ld_unit_zero hz]

/-- After stores the last of which fills the whole shape with `w`, the view reads `w`. -/
theorem read_writes_whole [∀ e, Nonempty (Val e)] (v : View sig κ sp S e) (f : v.ty.Contents Val) {off : Fin S.rank → ℕ}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero hz inb y⟩),
    View.canon_cons_unit_zero hz]

/-- A whole-shape load issued after stores the last of which filled the whole shape with `w` reads `w`. -/
theorem readCov_whole [∀ e, Nonempty (Val e)] (v : View sig κ sp S e) {off : Fin S.rank → ℕ}
    (hz : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.Mem.head _, View.mem_set_unit_zero hz inb y⟩),
    View.canon_cons_unit_zero hz, View.ld_unit_zero hz]

/-- The zero offsets of a rank-2 rectangle, as the printed programs spell them. -/
theorem zero_off2 : (![0, 0] : Fin 2 → ℕ) = fun _ => 0 := by funext a; fin_cases a <;> rfl

end Idealize.ShloMosaic.WholeBuffer
-- ==== Proof.KernelBody.lean ====
import proofs.«171660_j1717986918748_2_alg».proof.Proof.Gen.Kernel.Launch
import proofs.«171660_j1717986918748_2_alg».proof.Proof.Gen.Kernel.Skeleton
import proofs.«171660_j1717986918748_2_alg».proof.Proof.Gen.Kernel.Points
import proofs.«171660_j1717986918748_2_alg».proof.Proof.LibWholeBuffer
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body at one grid point

The body has one branch, taken at the first grid point only: there it first stores the zero block into the 1×1
accumulator. At every point it then loads the four input blocks and the accumulator, and stores back the accumulator
plus the block's partial sum (the payload `k0_pay2`). So on whole staging buffers the body leaves the inputs as they
were and the accumulator at `k0_pay2` of the four blocks and of what the accumulator held — the zero block `k0_pay1`
at the first point, its previous contents elsewhere. -/

/-- The condition of the body's branch, as the printed scalar chain over the grid coordinates. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the 256 points only (decided over the grid). -/
theorem isFirst_iff : ∀ t : Fin cfg0.N, isFirst (grid0.coords t) ↔ t.val = 0 :=
  (by decide +kernel : ∀ t : Fin grid0.N, isFirst (grid0.coords t) ↔ t.val = 0)

/-- The zero offset of a rank-1 rectangle, as the printed program spells it. -/
theorem zero_off1 : (![0] : Fin 1 → ℕ) = fun _ => 0 := by funext a; fin_cases a; rfl

set_option maxHeartbeats 1000000 in
/-- The body at the first point: the accumulator, whatever it held, ends at the payload of the four blocks over the
    zero block. -/
theorem run_first (c : Dev nD) (i : grid0.Coords)
    (arg2 : Memref sig .tc .vmem S1024 .f32) (harg2 : arg2.IsWhole) (arg3 : Memref sig .tc .vmem S1024 .f32) (harg3 : arg3.IsWhole)
    (arg4 : Memref sig .tc .vmem S1024 .f32) (harg4 : arg4.IsWhole) (arg5 : Memref sig .tc .vmem S1024 .f32) (harg5 : arg5.IsWhole)
    (arg6 : Memref sig .tc .vmem S1x1 .f32) (harg6 : arg6.IsWhole) (hc : isFirst i)
    (x0 x1 x2 x3 : Vec F S1024 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay2 x2 x3 x0 x1 (k0_pay1 (F := F)))) -∗ K ⟨⟩))
      ⊢ wp frame (wpE (defs₀ (F := F)) Variants.none c none) E (cc0__pair_kernel i arg2 harg2 arg3 harg3 arg4 harg4 arg5 harg5 arg6 harg6) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  obtain rfl := harg2.eq_unread hf0
  obtain rfl := harg3.eq_unread hf1
  obtain rfl := harg4.eq_unread hf2
  obtain rfl := harg5.eq_unread hf3
  sl_exec (disch := first | exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H6
  ipureintro
  rw [WholeBuffer.read_writes_whole _ _ WholeBuffer.zero_off2,
    WholeBuffer.readAt_whole harg4 zero_off1, WholeBuffer.readAt_whole harg5 zero_off1,
    WholeBuffer.readAt_whole harg2 zero_off1, WholeBuffer.readAt_whole harg3 zero_off1]
  sl_unfold_run_names
  rw [WholeBuffer.readCov_whole _ WholeBuffer.zero_off2]

set_option maxHeartbeats 1000000 in
/-- The body at any later point: the accumulator at `xo` ends at the payload of the four blocks over `xo`. -/
theorem run_next (c : Dev nD) (i : grid0.Coords)
    (arg2 : Memref sig .tc .vmem S1024 .f32) (harg2 : arg2.IsWhole) (arg3 : Memref sig .tc .vmem S1024 .f32) (harg3 : arg3.IsWhole)
    (arg4 : Memref sig .tc .vmem S1024 .f32) (harg4 : arg4.IsWhole) (arg5 : Memref sig .tc .vmem S1024 .f32) (harg5 : arg5.IsWhole)
    (arg6 : Memref sig .tc .vmem S1x1 .f32) (harg6 : arg6.IsWhole) (hc : ¬ isFirst i)
    (x0 x1 x2 x3 : Vec F S1024 .f32) (xo : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay2 x2 x3 x0 x1 xo)) -∗ K ⟨⟩))
      ⊢ wp frame (wpE (defs₀ (F := F)) Variants.none c none) E (cc0__pair_kernel i arg2 harg2 arg3 harg3 arg4 harg4 arg5 harg5 arg6 harg6) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0
  obtain rfl := harg3.eq_unread hf1
  obtain rfl := harg4.eq_unread hf2
  obtain rfl := harg5.eq_unread hf3
  obtain rfl := harg6.eq_unread hf6
  sl_exec (disch := first | exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H6
  ipureintro
  rw [WholeBuffer.read_writes_whole _ _ WholeBuffer.zero_off2,
    WholeBuffer.readAt_whole harg4 zero_off1, WholeBuffer.readAt_whole harg5 zero_off1,
    WholeBuffer.readAt_whole harg2 zero_off1, WholeBuffer.readAt_whole harg3 zero_off1,
    WholeBuffer.readAt_whole harg6 WholeBuffer.zero_off2]

end Cert.Kernel.Hand

end
-- ==== Proof.KernelRegion.lean ====
import proofs.«171660_j1717986918748_2_alg».proof.Proof.Gen.Kernel.Launch
import proofs.«171660_j1717986918748_2_alg».proof.Proof.Gen.Kernel.Skeleton
import proofs.«171660_j1717986918748_2_alg».proof.Proof.Gen.Kernel.Points
import proofs.«171660_j1717986918748_2_alg».proof.Proof.KernelBody
import Idealize.ShloMosaic.Lib.Pipeline.Frame
import Idealize.ShloMosaic.Lib.Pipeline.FrameSuffix
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region as the pipeline runs it

The call walks a 16 × 16 grid, the column coordinate fastest. Windows 0 and 2 (the row indicator and the row scores)
take block `t / 16` of their arrays, windows 1 and 3 (the column indicator and the column scores) block `t % 16`;
windows 2 and 3 are two windows on ONE array, the scores. Window 4 is the 1 × 1 accumulator, resident across the whole
grid and written back once, after the last point. -/

/-- Core `c`'s unscoped buffers when the region is entered: the launch contents after the host operations that
    precede the call. -/
abbrev V0 (c : Dev nD) : Valuation τ sig (Elt F) := StableHlo.after (List.flatten [hostOps0 (F := F)]) (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- THE ACCUMULATION. What the accumulator's staging buffer holds after the body at position `n`: at the first point
    the payload of that point's blocks over the zero block, later the payload of the point's blocks over what the point
    before left (the buffer is not written back in between). -/
def accAt (c : Dev nD) : (n : ℕ) → n < cfg0.N → Vec F S1x1 .f32
  | 0, hn => k0_pay2 (iblk m c 2 ⟨0, hn⟩) (iblk m c 3 ⟨0, hn⟩) (iblk m c 0 ⟨0, hn⟩) (iblk m c 1 ⟨0, hn⟩) (k0_pay1 (F := F))
  | n + 1, hn => k0_pay2 (iblk m c 2 ⟨n + 1, hn⟩) (iblk m c 3 ⟨n + 1, hn⟩) (iblk m c 0 ⟨n + 1, hn⟩) (iblk m c 1 ⟨n + 1, hn⟩)
      (accAt c n (Nat.lt_of_succ_lt hn))

theorem accAt_first (c : Dev nD) (t : Fin cfg0.N) (h0 : t.val = 0) :
    accAt m c t.val t.isLt = k0_pay2 (iblk m c 2 t) (iblk m c 3 t) (iblk m c 0 t) (iblk m c 1 t) (k0_pay1 (F := F)) := by
  obtain ⟨n, hn⟩ := t
  cases n with
  | zero => rfl
  | succ n => exact absurd h0 (Nat.succ_ne_zero n)

theorem accAt_next (c : Dev nD) (t : Fin cfg0.N) (h0 : t.val ≠ 0) :
    accAt m c t.val t.isLt = k0_pay2 (iblk m c 2 t) (iblk m c 3 t) (iblk m c 0 t) (iblk m c 1 t)
      (accAt m c (t.val - 1) (Nat.lt_of_le_of_lt (Nat.sub_le _ _) t.isLt)) := by
  obtain ⟨n, hn⟩ := t
  cases n with
  | zero => exact absurd rfl h0
  | succ n => rfl

/-- The proof data of the pipeline on core `c`: the arrays as the region finds them; after the body at point `t`
    each input's buffer at its block and the accumulator's at `accAt`; the invariant the scoped buffers that are no
    staging buffer; nothing owed. The scores array is read through two windows, each holding half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accAt m c t.val t.isLt := by dsimp only [dats]

/-- Each input's current staging buffer holds its block at every point, fetched there or not: where it is not
    fetched the block index has not moved since the point before. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- After the first point the accumulator's staging buffer holds what the body left at the point before: it is
    written back only after the last point. -/
theorem before0_4 (c : Dev nD) (t : Fin cfg0.N) (h0 : t.val ≠ 0) (d) :
    (dats m 0 c).before 4 t d = accAt m c (t.val - 1) (Nat.lt_of_le_of_lt (Nat.sub_le _ _) t.isLt) := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dats]

/-! ## The body obligation -/

abbrev ms0 (t : Fin cfg0.N) : Memref sig .tc .vmem S1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; at the first point the accumulator is reset and
    the payload taken over the zero block, at a later point it holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val = 0
  · rw [accAt_first m c t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((isFirst_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_next m c t h0]
    simp only [before0_4 m c t h0]
    iintro ⟨HΦ, Ho, ⟨%d0, H0⟩, ⟨%d1, H1⟩, ⟨%d2, H2⟩, ⟨%d3, H3⟩, ⟨%d4, H4⟩⟩
    iapply (run_next c (grid0.coords t) _ _ _ _ _ _ _ _ _ _ (fun h => h0 ((isFirst_iff t).mp h)) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
import proofs.«171660_j1717986918748_2_alg».proof.Proof.Gen.Kernel.Launch
import proofs.«171660_j1717986918748_2_alg».proof.Proof.Gen.Kernel.Skeleton
import proofs.«171660_j1717986918748_2_alg».proof.Proof.Gen.Kernel.Points
import proofs.«171660_j1717986918748_2_alg».proof.Proof.KernelRegion
import Idealize.ShloMosaic.Lib.Pipeline.Frame
import Idealize.ShloMosaic.Lib.Pipeline.FrameSuffix
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array behind two windows

The scores array `main_v4` is read through windows 2 and 3. The launch hands the pipeline each distinct array whole;
the proof data holds every window's array at the window's share. The two forms are interchangeable: the scores array at
the full share is its left half and its right half, one per window, at the same contents. -/

theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl

/-- The windows' arrays at contents `Fv`, window by window, each at its share. -/
theorem arrays_enum (c : Dev nD) (Fv : (w : Fin cfg0.W) → Buf (Elt F) ((cfg0.win w).arr.view.loc (c.tc : Thread nD τ))) :
    ((dats m 0 c).arrays Fv : sProp 𝕄)
      = iprop((((cfg0.win 0).arr.view.loc (c.tc : Thread nD τ)) ↦{fullShare} Fv 0)
          ∗ (((cfg0.win 1).arr.view.loc (c.tc : Thread nD τ)) ↦{fullShare} Fv 1)
          ∗ (((cfg0.win 2).arr.view.loc (c.tc : Thread nD τ)) ↦{fullShare.left} Fv 2)
          ∗ (((cfg0.win 3).arr.view.loc (c.tc : Thread nD τ)) ↦{fullShare.right} Fv 3)
          ∗ (((cfg0.win 4).arr.view.loc (c.tc : Thread nD τ)) ↦{fullShare} Fv 4)) := by
  unfold Dat.arrays
  rw [bigSep_W0, (arr_whole0 0).set_eq_univ, (arr_whole0 1).set_eq_univ, (arr_whole0 2).set_eq_univ, (arr_whole0 4).set_eq_univ,
    share_0, share_1, share_2, share_3, share_4]

/-- The four distinct buffers behind the five windows, each whole at the full share. -/
theorem arrBufs_enum (c : Dev nD) (Vv : (b : Ref sig .tc) → Buf (Elt F) ((c.tc : Thread nD τ).loc b)) :
    (Pipeline.arrBufs spec0 c Vv : sProp 𝕄)
      = iprop((((c.tc : Thread nD τ).loc main_v7) ↦{fullShare} Vv main_v7)
          ∗ (((c.tc : Thread nD τ).loc main_v5) ↦{fullShare} Vv main_v5)
          ∗ (((c.tc : Thread nD τ).loc main_v4) ↦{fullShare} Vv main_v4)
          ∗ (((c.tc : Thread nD τ).loc main_v10) ↦{fullShare} Vv main_v10)) := by
  unfold Pipeline.arrBufs
  exact bigSep_eq_bigSepL_of_eq [main_v7, main_v5, main_v4, main_v10] (by decide) (by decide) _

/-- From the distinct buffers to the windows' arrays: the scores array is split between its two windows. -/
theorem arrays_of_arrBufs (c : Dev nD) (Vv : (b : Ref sig .tc) → Buf (Elt F) ((c.tc : Thread nD τ).loc b)) :
    (Pipeline.arrBufs spec0 c Vv : sProp 𝕄) ⊢ (dats m 0 c).arrays (fun w => Vv (Pipeline.arrRef spec0 w)) := by
  rw [arrBufs_enum, arrays_enum]
  iintro ⟨H7, H5, H4, H10⟩
  ihave H4' := (pointsTo_share (PosShare.mem_left_op_right fullShare)).1 $$ H4
  icases H4' with ⟨H4l, H4r⟩
  isplitl [H7]; · iexact H7
  isplitl [H5]; · iexact H5
  isplitl [H4l]; · iexact H4l
  isplitl [H4r]; · iexact H4r
  iexact H10

/-- And back: the two halves of the scores array, at the same contents, are the whole. -/
theorem arrBufs_of_arrays (c : Dev nD) (Vv : (b : Ref sig .tc) → Buf (Elt F) ((c.tc : Thread nD τ).loc b)) :
    ((dats m 0 c).arrays (fun w => Vv (Pipeline.arrRef spec0 w)) : sProp 𝕄) ⊢ Pipeline.arrBufs spec0 c Vv := by
  rw [arrBufs_enum, arrays_enum]
  iintro ⟨H7, H5, H4l, H4r, H10⟩
  isplitl [H7]; · iexact H7
  isplitl [H5]; · iexact H5
  isplitl [H4l H4r]
  · iapply (pointsTo_share (PosShare.mem_left_op_right fullShare)).2
    isplitl [H4l]; · iexact H4l
    iexact H4r
  iexact H10

/-! ## The contents at the region's exit and at the program's end -/

/-- The host operations after the call, stretch by stretch (the two calls of the module-local select function are
    stretches of their own). -/
abbrev tailOps : List (List (HloOp τ sig (Elt F))) := [hostOps1, hostOps1_1, hostOps1_2, hostOps1_3]

/-- Core `c`'s unscoped buffers when the region is left: as it found them, but for the accumulator's array, which
    holds what the region wrote back. -/
def Vx (c : Dev nD) : Valuation τ sig (Elt F) :=
  Function.update (V0 m c) (Proc.devRef .tc main_v10) ((dats m 0 c).arrAt 4 cfg0.N)

/-- and at the program's end: after the host operations that follow the call. -/
def Vfin0 (c : Dev nD) : Valuation τ sig (Elt F) := StableHlo.after (List.flatten (tailOps (F := F))) (Vx m c)
abbrev Vfin (c : Dev nD) (b : Ref sig .tc) : Buf (Elt F) ((c : Thread nD τ).loc b) := Vfin0 m c (Proc.devRef .tc b)

/-- The buffers the operations after the call write: none is a window's array. -/
abbrev tailW : List (Ref sig .tc) :=
  [main_v11, main_v12, main_cst_2, main_v13, main_cst_3, main_call0_v0, main_v14, main_v15, main_cst_4, main_v16, main_cst_5, main_call1_v0, main_v17]

theorem tail_writes : (List.flatten (tailOps (F := F))).Forall fun op => op.writes ⊆ (tailW.map (Proc.devRef (τ := τ) .tc)).toFinset := by
  simp only [List.flatten_cons, List.flatten_nil, List.append_nil, List.cons_append, List.nil_append, List.Forall]
  refine ⟨?_, ?_, ?_, ?_, ?_, ?_, ?_, ?_, ?_, ?_, ?_, ?_, ?_⟩ <;>
    exact Finset.singleton_subset_iff.mpr (List.mem_toFinset.mpr (List.mem_map_of_mem (by decide)))

theorem tail_fresh : ∀ ops ∈ (tailOps (F := F)), ∀ op ∈ ops, op.fresh = ∅ := by
  intro ops hops op hop
  simp only [List.mem_cons, List.not_mem_nil, or_false] at hops
  rcases hops with rfl | rfl | rfl | rfl <;> (simp only [List.mem_cons, List.not_mem_nil, or_false] at hop; rcases hop with rfl | rfl | rfl | rfl | rfl <;> rfl)

theorem tail_sub : ∀ ops ∈ (tailOps (F := F)), ∀ op ∈ ops, op.bufs ⊆ Pipeline.ucRefs τ sig := by
  intro ops hops op hop
  refine Pipeline.sub_ucRefs op ?_
  simp only [List.mem_cons, List.not_mem_nil, or_false] at hops
  rcases hops with rfl | rfl | rfl | rfl
  · exact (List.forall_iff_forall_mem.mp hostOps1_sub) op hop
  · exact (List.forall_iff_forall_mem.mp hostOps1_1_sub) op hop
  · exact (List.forall_iff_forall_mem.mp hostOps1_2_sub) op hop
  · exact (List.forall_iff_forall_mem.mp hostOps1_3_sub) op hop

/-- A window's array holds at the exit what the library computes for it: an input its entry contents, the
    accumulator's array what was written back. -/
theorem arr_ne : ∀ w : Fin 5, w ≠ 4 → Pipeline.arrRef spec0 w ≠ main_v10 := by decide
theorem arr_in : ∀ w : Fin 5, w ≠ 4 → (cfg0.win w).isOut = false := by decide
theorem arr_not_written : ∀ w : Fin 5, Pipeline.arrRef spec0 w ∉ tailW := by decide

theorem Vx_arr (c : Dev nD) (w : Fin cfg0.W) : Vx m c (Proc.devRef .tc (Pipeline.arrRef spec0 w)) = (dats m 0 c).arrAt w cfg0.N := by
  by_cases h : w = 4
  · subst h; exact Function.update_self _ _ _
  · exact (Function.update_of_ne (StableHlo.devRef_ne_of_ne (arr_ne w h)) _ _).trans
      (((dats m 0 c).arrAt_in w (arr_in w h) _).trans (A_eq m c w)).symm

/-- A buffer that is no window's array is at the exit as the region found it. -/
theorem Vx_rest (c : Dev nD) (b : Ref sig .tc) (hb : b ∈ Pipeline.restRefs sig spec0) : Vx m c (Proc.devRef .tc b) = V m c b :=
  Function.update_of_ne (StableHlo.devRef_ne_of_ne fun e => (Finset.mem_sdiff.mp hb).2 (Finset.mem_image.mpr ⟨4, Finset.mem_univ _, e.symm⟩)) _ _

/-- The operations after the call write no window's array. -/
theorem Vfin_arr (c : Dev nD) (w : Fin cfg0.W) : Vfin0 m c (Proc.devRef .tc (Pipeline.arrRef spec0 w)) = (dats m 0 c).arrAt w cfg0.N := by
  exact (StableHlo.after_of_writes_sub _ _ tail_writes (arr_not_written w)).trans (Vx_arr m c w)

/-! ## All unscoped buffers as the windows' arrays and the rest -/

theorem arr_unscoped : ∀ w, (Pipeline.arrRef spec0 w).isScoped = false := by decide

/-- The core's unscoped buffers held at a valuation are the windows' arrays, each at its window's share, and the
    buffers that are no window's array — in both directions. -/
theorem held_split (c : Dev nD) (W : Valuation τ sig (Elt F)) :
    (StableHlo.held (c.tc : Thread nD τ) (Pipeline.ucRefs τ sig) W : sProp 𝕄)
      ⊢ iprop((dats m 0 c).arrays (fun w => W (Proc.devRef .tc (Pipeline.arrRef spec0 w))) ∗ Pipeline.unscopedRest spec0 c (fun b => W (Proc.devRef .tc b))) := by
  rw [← Pipeline.unscopedBufs_held (Ix := Unit) (Name := ℕ) (U := UR sig nD τ) (Lvl := ℕ) c W,
    Pipeline.unscopedBufs_split₀ cfgs 0 arr_unscoped c]
  iintro ⟨Ha, Hr⟩
  isplitl [Ha]
  · iapply (arrays_of_arrBufs m c (fun b => W (Proc.devRef .tc b))); iexact Ha
  · iexact Hr

theorem held_join (c : Dev nD) (W : Valuation τ sig (Elt F)) :
    iprop((dats m 0 c).arrays (fun w => W (Proc.devRef .tc (Pipeline.arrRef spec0 w))) ∗ Pipeline.unscopedRest spec0 c (fun b => W (Proc.devRef .tc b)))
      ⊢ (StableHlo.held (c.tc : Thread nD τ) (Pipeline.ucRefs τ sig) W : sProp 𝕄) := by
  rw [← Pipeline.unscopedBufs_held (Ix := Unit) (Name := ℕ) (U := UR sig nD τ) (Lvl := ℕ) c W,
    Pipeline.unscopedBufs_split₀ cfgs 0 arr_unscoped c]
  iintro ⟨Ha, Hr⟩
  isplitl [Ha]
  · iapply (arrBufs_of_arrays m c (fun b => W (Proc.devRef .tc b))); iexact Ha
  · iexact Hr

/-! ## The run -/

theorem hostOps0_fresh : (hostOps0 : List (HloOp τ sig (Elt F))).Forall fun op => op.fresh = ∅ := by
  simp only [List.Forall]; repeat' constructor

/-- @main is the host operations before the call, the call, and the host operations after it. -/
theorem hmain : Pipeline.HMainK (Ix := Unit) (Name := ℕ) (U := UR sig nD τ) (Lvl := ℕ) cfgs 0 defs₀ Variants.none m (main (F := F)) (V m)
    (fun _ => Pipeline.chain ((tailOps (F := F)).map StableHlo.seq)) :=
  Pipeline.hmain_around cfgs 0 defs₀ Variants.none m main [hostOps0] tailOps hostOps0_sub hostOps0_fresh
    (fun c => (main_chain c).trans rfl)

/-- At the exit the windows' arrays and the other buffers are the unscoped buffers held at the exit contents, -/
theorem exit_held (c : Dev nD) :
    iprop((dats m 0 c).arrays ((dats m 0 c).arrAt · cfg0.N) ∗ Pipeline.unscopedRest spec0 c (V m c))
      ⊢ (StableHlo.held (c.tc : Thread nD τ) (Pipeline.ucRefs τ sig) (Vx m c) : sProp 𝕄) := by
  have e1 : (fun w => (dats m 0 c).arrAt w cfg0.N) = fun w => Vx m c (Proc.devRef .tc (Pipeline.arrRef spec0 w)) :=
    funext fun w => (Vx_arr m c w).symm
  have e2 : (Pipeline.unscopedRest spec0 c (V m c) : sProp 𝕄) = Pipeline.unscopedRest spec0 c (fun b => Vx m c (Proc.devRef .tc b)) := by
    unfold Pipeline.unscopedRest; exact bigSep_congr fun b hb => by dsimp only; rw [Vx_rest m c b hb]
  rw [e1, e2]
  exact held_join m c (Vx m c)

/-- and at the end they are split the same way again, the arrays unchanged by the operations after the call. -/
theorem end_split (c : Dev nD) :
    (StableHlo.held (c.tc : Thread nD τ) (Pipeline.ucRefs τ sig) (Vfin0 m c) : sProp 𝕄)
      ⊢ iprop((dats m 0 c).arrays ((dats m 0 c).arrAt · cfg0.N) ∗ Pipeline.unscopedRest spec0 c (Vfin m c)) := by
  have e3 : (fun w => (dats m 0 c).arrAt w cfg0.N) = fun w => Vfin0 m c (Proc.devRef .tc (Pipeline.arrRef spec0 w)) :=
    funext fun w => (Vfin_arr m c w).symm
  rw [e3]
  exact held_split m c (Vfin0 m c)

set_option backward.isDefEq.respectTransparency.types false in
/-- The host operations after the call, run from the region's exit. -/
theorem tail_run (c : Dev nD) (Q' : PUnit → sProp 𝕄) :
    iprop((iprop((dats m 0 c).arrays ((dats m 0 c).arrAt · cfg0.N) ∗ Pipeline.unscopedRest spec0 c (Vfin m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain ((tailOps (F := F)).map StableHlo.seq)) Q' := by
  rw [← List.append_nil ((tailOps (F := F)).map StableHlo.seq)]
  iintro ⟨Hk, Hb, Ha, Hr⟩
  ihave Hh := (exit_held m c) $$ [Ha Hr]
  · isplitl [Ha] <;> iassumption
  iapply (Pipeline.wp_seqs_then (pcfgs (F := F)) defs₀ Variants.none c (Pipeline.ucRefs τ sig) [] tailOps tail_sub tail_fresh (Vx m c)) $$ [Hb Hh]
  · isplitl [Hb] <;> iassumption
  iintro Hb
  rw [Pipeline.chain_nil, wp_pure]
  imodintro
  iapply Hk
  icases Hb with ⟨-, H⟩
  iapply (end_split m c)
  iexact H

set_option maxHeartbeats 2000000 in
set_option backward.isDefEq.respectTransparency.types false in
/-- THE RUN. From any memory with zero counters every weakly fair execution of @main terminates, and ends with every
    window's array at what the library computes from the proof data (the accumulator's array at what the last point
    wrote back) and every other unscoped buffer at the contents after the host operations that follow the call. -/
theorem run_main : θ_run (defs (F := F)) (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vfin m c b) := by
  classical
  exact Pipeline.θ_run_region_noSem_pf_tail (fun p => (cfgs p).toPCfg) (fun p => (cfgs p).toPCfg_adm) (dats m) () cellOf_inj 0 winFacts₀0
    (Pipeline.PreFacts.none _) emb₁ defs₀ Variants.none m ρ main (fun _ => Pipeline.chain ((tailOps (F := F)).map StableHlo.seq))
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m)
    (hsplit := fun c => (arrays_of_arrBufs m c (V m c)).trans (Entails.of_eq (congrArg _ (funext fun w => (A_eq m c w).symm))))
    (hpf := fun _ k => k.elim0)
    (X := fun _ => iprop(emp)) (Y := fun _ => iprop(emp))
    (Z := fun c => Pipeline.unscopedRest spec0 c (V m c))
    (Z' := fun c => Pipeline.unscopedRest spec0 c (Vfin m c))
    (hX := fun c => by
      rw [Pipeline.unscopedRestP_none]
      iintro H; isplitr; · iempintro
      iexact H)
    (hin := fun c => show iprop(_ ∗ _ ∗ Pipeline.scopedRest (Ix := Unit) (Name := ℕ) (U := UR sig nD τ) (Lvl := ℕ) (Val := Elt F) spec0 c) ⊢ Pipeline.scopedRest (Ix := Unit) (Name := ℕ) (U := UR sig nD τ) (Lvl := ℕ) (Val := Elt F) spec0 c from by
      iintro ⟨-, -, HR⟩; iexact HR)
    (hout := fun c => show Pipeline.scopedRest (Ix := Unit) (Name := ℕ) (U := UR sig nD τ) (Lvl := ℕ) (Val := Elt F) spec0 c ⊢ iprop(emp ∗ Pipeline.scopedRest (Ix := Unit) (Name := ℕ) (U := UR sig nD τ) (Lvl := ℕ) (Val := Elt F) spec0 c) from by
      iintro HR; isplitr; · iempintro
      iexact HR)
    (htail := fun c Q' => tail_run m c Q')
    (QY := fun c s => ∀ b ∈ Pipeline.restRefs sig spec0, s.mem ((c.tc : Thread nD τ).loc b) = Vfin m c b)
    (hY := fun c s' => by
      iintro ⟨-, HU, HSI⟩
      unfold Pipeline.unscopedRest
      imodintro
      iapply (pointsTo_read_all (Pipeline.restRefs sig spec0) (fun b => (c.tc : Thread nD τ).loc b) (Vfin m c) s')
      isplitl [HU] <;> iassumption)
    (hQ := fun s h c => ⟨(h c).1, (h c).2.2⟩)

/-! ## The frame, and the result buffer -/

/-- The buffers the host operations before the call write. -/
abbrev headW : List (Ref sig .tc) :=
  [main_v0, main_v1, main_v2, main_v3, main_v4, main_v5, main_cst, main_v6, main_v7, main_cst_0, main_v8, main_cst_1, main_v9]

theorem head_writes : (List.flatten [hostOps0 (F := F)]).Forall fun op => op.writes ⊆ (headW.map (Proc.devRef (τ := τ) .tc)).toFinset := by
  simp only [List.flatten_cons, List.flatten_nil, List.append_nil, List.Forall]
  refine ⟨?_, ?_, ?_, ?_, ?_, ?_, ?_, ?_, ?_, ?_, ?_, ?_, ?_⟩ <;>
    exact Finset.singleton_subset_iff.mpr (List.mem_toFinset.mpr (List.mem_map_of_mem (by decide)))

/-- A buffer that no host operation writes and that is not the accumulator's array ends as it was launched. -/
theorem Vfin_untouched (c : Dev nD) (b : Ref sig .tc) (h1 : b ∉ tailW) (h2 : b ≠ main_v10) (h3 : b ∉ headW) :
    Vfin m c b = m ((c : Thread nD τ).loc b) :=
  (StableHlo.after_of_writes_sub _ _ tail_writes h1).trans
    ((Function.update_of_ne (StableHlo.devRef_ne_of_ne h2) _ _).trans ((StableHlo.after_of_writes_sub _ _ head_writes h3).trans rfl))

theorem arg0_rest : main_arg0 ∈ Pipeline.restRefs sig spec0 := by decide
theorem arg1_rest : main_arg1 ∈ Pipeline.restRefs sig spec0 := by decide
theorem v17_rest : main_v17 ∈ Pipeline.restRefs sig spec0 := by decide

/-- Every run ends with the result buffer at the contents after the last host operation, and the two argument arrays
    as launched. -/
theorem run_result : θ_run (defs (F := F)) (onTc (τ := τ) (main (F := F))) ⟨m, fun _ => 0, ρ⟩ (fun r => ∀ c : Dev nD,
      r.2.mem ((c.tc : Thread nD τ).loc main_v17) = Vfin m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v17 v17_rest,
      ((h c).2 main_arg0 arg0_rest).trans (Vfin_untouched m c main_arg0 (by decide) (by decide) (by decide)),
      ((h c).2 main_arg1 arg1_rest).trans (Vfin_untouched m c main_arg1 (by decide) (by decide) (by decide))⟩) (run_main m ρ)

/-- THE FRAME: every run terminates without a fault and leaves the two argument arrays as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Hand

end
-- ==== Proof.KernelIdealBody.lean ====
import proofs.«171660_j1717986918748_2_alg».proof.Proof.Gen.KernelIdeal.Launch
import proofs.«171660_j1717986918748_2_alg».proof.Proof.Gen.KernelIdeal.Skeleton
import proofs.«171660_j1717986918748_2_alg».proof.Proof.Gen.KernelIdeal.Points
import proofs.«171660_j1717986918748_2_alg».proof.Proof.LibWholeBuffer
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body at one grid point

The body has one branch, taken at the first grid point only: there it first stores the zero block into the 1×1
accumulator. At every point it then loads the four input blocks and the accumulator, and stores back the accumulator
plus the block's partial sum (the payload `k0_pay2`). So on whole staging buffers the body leaves the inputs as they
were and the accumulator at `k0_pay2` of the four blocks and of what the accumulator held — the zero block `k0_pay1`
at the first point, its previous contents elsewhere. -/

/-- The condition of the body's branch, as the printed scalar chain over the grid coordinates. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the 256 points only (decided over the grid). -/
theorem isFirst_iff : ∀ t : Fin cfg0.N, isFirst (grid0.coords t) ↔ t.val = 0 :=
  (by decide +kernel : ∀ t : Fin grid0.N, isFirst (grid0.coords t) ↔ t.val = 0)

/-- The zero offset of a rank-1 rectangle, as the printed program spells it. -/
theorem zero_off1 : (![0] : Fin 1 → ℕ) = fun _ => 0 := by funext a; fin_cases a; rfl

set_option maxHeartbeats 1000000 in
/-- The body at the first point: the accumulator, whatever it held, ends at the payload of the four blocks over the
    zero block. -/
theorem run_first (c : Dev nD) (i : grid0.Coords)
    (arg2 : Memref sig .tc .vmem S1024 .f32) (harg2 : arg2.IsWhole) (arg3 : Memref sig .tc .vmem S1024 .f32) (harg3 : arg3.IsWhole)
    (arg4 : Memref sig .tc .vmem S1024 .f32) (harg4 : arg4.IsWhole) (arg5 : Memref sig .tc .vmem S1024 .f32) (harg5 : arg5.IsWhole)
    (arg6 : Memref sig .tc .vmem S1x1 .f32) (harg6 : arg6.IsWhole) (hc : isFirst i)
    (x0 x1 x2 x3 : Vec F S1024 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay2 x2 x3 x0 x1 (k0_pay1 (F := F)))) -∗ K ⟨⟩))
      ⊢ wp frame (wpE (defs₀ (F := F)) Variants.none c none) E (cc0__pair_kernel i arg2 harg2 arg3 harg3 arg4 harg4 arg5 harg5 arg6 harg6) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  obtain rfl := harg2.eq_unread hf0
  obtain rfl := harg3.eq_unread hf1
  obtain rfl := harg4.eq_unread hf2
  obtain rfl := harg5.eq_unread hf3
  sl_exec (disch := first | exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H6
  ipureintro
  rw [WholeBuffer.read_writes_whole _ _ WholeBuffer.zero_off2,
    WholeBuffer.readAt_whole harg4 zero_off1, WholeBuffer.readAt_whole harg5 zero_off1,
    WholeBuffer.readAt_whole harg2 zero_off1, WholeBuffer.readAt_whole harg3 zero_off1]
  sl_unfold_run_names
  rw [WholeBuffer.readCov_whole _ WholeBuffer.zero_off2]

set_option maxHeartbeats 1000000 in
/-- The body at any later point: the accumulator at `xo` ends at the payload of the four blocks over `xo`. -/
theorem run_next (c : Dev nD) (i : grid0.Coords)
    (arg2 : Memref sig .tc .vmem S1024 .f32) (harg2 : arg2.IsWhole) (arg3 : Memref sig .tc .vmem S1024 .f32) (harg3 : arg3.IsWhole)
    (arg4 : Memref sig .tc .vmem S1024 .f32) (harg4 : arg4.IsWhole) (arg5 : Memref sig .tc .vmem S1024 .f32) (harg5 : arg5.IsWhole)
    (arg6 : Memref sig .tc .vmem S1x1 .f32) (harg6 : arg6.IsWhole) (hc : ¬ isFirst i)
    (x0 x1 x2 x3 : Vec F S1024 .f32) (xo : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay2 x2 x3 x0 x1 xo)) -∗ K ⟨⟩))
      ⊢ wp frame (wpE (defs₀ (F := F)) Variants.none c none) E (cc0__pair_kernel i arg2 harg2 arg3 harg3 arg4 harg4 arg5 harg5 arg6 harg6) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0
  obtain rfl := harg3.eq_unread hf1
  obtain rfl := harg4.eq_unread hf2
  obtain rfl := harg5.eq_unread hf3
  obtain rfl := harg6.eq_unread hf6
  sl_exec (disch := first | exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H6
  ipureintro
  rw [WholeBuffer.read_writes_whole _ _ WholeBuffer.zero_off2,
    WholeBuffer.readAt_whole harg4 zero_off1, WholeBuffer.readAt_whole harg5 zero_off1,
    WholeBuffer.readAt_whole harg2 zero_off1, WholeBuffer.readAt_whole harg3 zero_off1,
    WholeBuffer.readAt_whole harg6 WholeBuffer.zero_off2]

end Cert.KernelIdeal.Hand

end
-- ==== Proof.KernelIdealRegion.lean ====
import proofs.«171660_j1717986918748_2_alg».proof.Proof.Gen.KernelIdeal.Launch
import proofs.«171660_j1717986918748_2_alg».proof.Proof.Gen.KernelIdeal.Skeleton
import proofs.«171660_j1717986918748_2_alg».proof.Proof.Gen.KernelIdeal.Points
import proofs.«171660_j1717986918748_2_alg».proof.Proof.KernelIdealBody
import Idealize.ShloMosaic.Lib.Pipeline.Frame
import Idealize.ShloMosaic.Lib.Pipeline.FrameSuffix
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region as the pipeline runs it

The call walks a 16 × 16 grid, the column coordinate fastest. Windows 0 and 2 (the row indicator and the row scores)
take block `t / 16` of their arrays, windows 1 and 3 (the column indicator and the column scores) block `t % 16`;
windows 2 and 3 are two windows on ONE array, the scores. Window 4 is the 1 × 1 accumulator, resident across the whole
grid and written back once, after the last point. -/

/-- Core `c`'s unscoped buffers when the region is entered: the launch contents after the host operations that
    precede the call. -/
abbrev V0 (c : Dev nD) : Valuation τ sig (Elt F) := StableHlo.after (List.flatten [hostOps0 (F := F)]) (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- THE ACCUMULATION. What the accumulator's staging buffer holds after the body at position `n`: at the first point
    the payload of that point's blocks over the zero block, later the payload of the point's blocks over what the point
    before left (the buffer is not written back in between). -/
def accAt (c : Dev nD) : (n : ℕ) → n < cfg0.N → Vec F S1x1 .f32
  | 0, hn => k0_pay2 (iblk m c 2 ⟨0, hn⟩) (iblk m c 3 ⟨0, hn⟩) (iblk m c 0 ⟨0, hn⟩) (iblk m c 1 ⟨0, hn⟩) (k0_pay1 (F := F))
  | n + 1, hn => k0_pay2 (iblk m c 2 ⟨n + 1, hn⟩) (iblk m c 3 ⟨n + 1, hn⟩) (iblk m c 0 ⟨n + 1, hn⟩) (iblk m c 1 ⟨n + 1, hn⟩)
      (accAt c n (Nat.lt_of_succ_lt hn))

theorem accAt_first (c : Dev nD) (t : Fin cfg0.N) (h0 : t.val = 0) :
    accAt m c t.val t.isLt = k0_pay2 (iblk m c 2 t) (iblk m c 3 t) (iblk m c 0 t) (iblk m c 1 t) (k0_pay1 (F := F)) := by
  obtain ⟨n, hn⟩ := t
  cases n with
  | zero => rfl
  | succ n => exact absurd h0 (Nat.succ_ne_zero n)

theorem accAt_next (c : Dev nD) (t : Fin cfg0.N) (h0 : t.val ≠ 0) :
    accAt m c t.val t.isLt = k0_pay2 (iblk m c 2 t) (iblk m c 3 t) (iblk m c 0 t) (iblk m c 1 t)
      (accAt m c (t.val - 1) (Nat.lt_of_le_of_lt (Nat.sub_le _ _) t.isLt)) := by
  obtain ⟨n, hn⟩ := t
  cases n with
  | zero => exact absurd rfl h0
  | succ n => rfl

/-- The proof data of the pipeline on core `c`: the arrays as the region finds them; after the body at point `t`
    each input's buffer at its block and the accumulator's at `accAt`; the invariant the scoped buffers that are no
    staging buffer; nothing owed. The scores array is read through two windows, each holding half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accAt m c t.val t.isLt := by dsimp only [dats]

/-- Each input's current staging buffer holds its block at every point, fetched there or not: where it is not
    fetched the block index has not moved since the point before. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- After the first point the accumulator's staging buffer holds what the body left at the point before: it is
    written back only after the last point. -/
theorem before0_4 (c : Dev nD) (t : Fin cfg0.N) (h0 : t.val ≠ 0) (d) :
    (dats m 0 c).before 4 t d = accAt m c (t.val - 1) (Nat.lt_of_le_of_lt (Nat.sub_le _ _) t.isLt) := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dats]

/-! ## The body obligation -/

abbrev ms0 (t : Fin cfg0.N) : Memref sig .tc .vmem S1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; at the first point the accumulator is reset and
    the payload taken over the zero block, at a later point it holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val = 0
  · rw [accAt_first m c t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((isFirst_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_next m c t h0]
    simp only [before0_4 m c t h0]
    iintro ⟨HΦ, Ho, ⟨%d0, H0⟩, ⟨%d1, H1⟩, ⟨%d2, H2⟩, ⟨%d3, H3⟩, ⟨%d4, H4⟩⟩
    iapply (run_next c (grid0.coords t) _ _ _ _ _ _ _ _ _ _ (fun h => h0 ((isFirst_iff t).mp h)) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
import proofs.«171660_j1717986918748_2_alg».proof.Proof.Gen.KernelIdeal.Launch
import proofs.«171660_j1717986918748_2_alg».proof.Proof.Gen.KernelIdeal.Skeleton
import proofs.«171660_j1717986918748_2_alg».proof.Proof.Gen.KernelIdeal.Points
import proofs.«171660_j1717986918748_2_alg».proof.Proof.KernelIdealRegion
import Idealize.ShloMosaic.Lib.Pipeline.Frame
import Idealize.ShloMosaic.Lib.Pipeline.FrameSuffix
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array behind two windows

The scores array `main_v4` is read through windows 2 and 3. The launch hands the pipeline each distinct array whole;
the proof data holds every window's array at the window's share. The two forms are interchangeable: the scores array at
the full share is its left half and its right half, one per window, at the same contents. -/

theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl

/-- The windows' arrays at contents `Fv`, window by window, each at its share. -/
theorem arrays_enum (c : Dev nD) (Fv : (w : Fin cfg0.W) → Buf (Elt F) ((cfg0.win w).arr.view.loc (c.tc : Thread nD τ))) :
    ((dats m 0 c).arrays Fv : sProp 𝕄)
      = iprop((((cfg0.win 0).arr.view.loc (c.tc : Thread nD τ)) ↦{fullShare} Fv 0)
          ∗ (((cfg0.win 1).arr.view.loc (c.tc : Thread nD τ)) ↦{fullShare} Fv 1)
          ∗ (((cfg0.win 2).arr.view.loc (c.tc : Thread nD τ)) ↦{fullShare.left} Fv 2)
          ∗ (((cfg0.win 3).arr.view.loc (c.tc : Thread nD τ)) ↦{fullShare.right} Fv 3)
          ∗ (((cfg0.win 4).arr.view.loc (c.tc : Thread nD τ)) ↦{fullShare} Fv 4)) := by
  unfold Dat.arrays
  rw [bigSep_W0, (arr_whole0 0).set_eq_univ, (arr_whole0 1).set_eq_univ, (arr_whole0 2).set_eq_univ, (arr_whole0 4).set_eq_univ,
    share_0, share_1, share_2, share_3, share_4]

/-- The four distinct buffers behind the five windows, each whole at the full share. -/
theorem arrBufs_enum (c : Dev nD) (Vv : (b : Ref sig .tc) → Buf (Elt F) ((c.tc : Thread nD τ).loc b)) :
    (Pipeline.arrBufs spec0 c Vv : sProp 𝕄)
      = iprop((((c.tc : Thread nD τ).loc main_v7) ↦{fullShare} Vv main_v7)
          ∗ (((c.tc : Thread nD τ).loc main_v5) ↦{fullShare} Vv main_v5)
          ∗ (((c.tc : Thread nD τ).loc main_v4) ↦{fullShare} Vv main_v4)
          ∗ (((c.tc : Thread nD τ).loc main_v10) ↦{fullShare} Vv main_v10)) := by
  unfold Pipeline.arrBufs
  exact bigSep_eq_bigSepL_of_eq [main_v7, main_v5, main_v4, main_v10] (by decide) (by decide) _

/-- From the distinct buffers to the windows' arrays: the scores array is split between its two windows. -/
theorem arrays_of_arrBufs (c : Dev nD) (Vv : (b : Ref sig .tc) → Buf (Elt F) ((c.tc : Thread nD τ).loc b)) :
    (Pipeline.arrBufs spec0 c Vv : sProp 𝕄) ⊢ (dats m 0 c).arrays (fun w => Vv (Pipeline.arrRef spec0 w)) := by
  rw [arrBufs_enum, arrays_enum]
  iintro ⟨H7, H5, H4, H10⟩
  ihave H4' := (pointsTo_share (PosShare.mem_left_op_right fullShare)).1 $$ H4
  icases H4' with ⟨H4l, H4r⟩
  isplitl [H7]; · iexact H7
  isplitl [H5]; · iexact H5
  isplitl [H4l]; · iexact H4l
  isplitl [H4r]; · iexact H4r
  iexact H10

/-- And back: the two halves of the scores array, at the same contents, are the whole. -/
theorem arrBufs_of_arrays (c : Dev nD) (Vv : (b : Ref sig .tc) → Buf (Elt F) ((c.tc : Thread nD τ).loc b)) :
    ((dats m 0 c).arrays (fun w => Vv (Pipeline.arrRef spec0 w)) : sProp 𝕄) ⊢ Pipeline.arrBufs spec0 c Vv := by
  rw [arrBufs_enum, arrays_enum]
  iintro ⟨H7, H5, H4l, H4r, H10⟩
  isplitl [H7]; · iexact H7
  isplitl [H5]; · iexact H5
  isplitl [H4l H4r]
  · iapply (pointsTo_share (PosShare.mem_left_op_right fullShare)).2
    isplitl [H4l]; · iexact H4l
    iexact H4r
  iexact H10

/-! ## The contents at the region's exit and at the program's end -/

/-- The host operations after the call, stretch by stretch (the two calls of the module-local select function are
    stretches of their own). -/
abbrev tailOps : List (List (HloOp τ sig (Elt F))) := [hostOps1, hostOps1_1, hostOps1_2, hostOps1_3]

/-- Core `c`'s unscoped buffers when the region is left: as it found them, but for the accumulator's array, which
    holds what the region wrote back. -/
def Vx (c : Dev nD) : Valuation τ sig (Elt F) :=
  Function.update (V0 m c) (Proc.devRef .tc main_v10) ((dats m 0 c).arrAt 4 cfg0.N)

/-- and at the program's end: after the host operations that follow the call. -/
def Vfin0 (c : Dev nD) : Valuation τ sig (Elt F) := StableHlo.after (List.flatten (tailOps (F := F))) (Vx m c)
abbrev Vfin (c : Dev nD) (b : Ref sig .tc) : Buf (Elt F) ((c : Thread nD τ).loc b) := Vfin0 m c (Proc.devRef .tc b)

/-- The buffers the operations after the call write: none is a window's array. -/
abbrev tailW : List (Ref sig .tc) :=
  [main_v11, main_v12, main_cst_2, main_v13, main_cst_3, main_call0_v0, main_v14, main_v15, main_cst_4, main_v16, main_cst_5, main_call1_v0, main_v17]

theorem tail_writes : (List.flatten (tailOps (F := F))).Forall fun op => op.writes ⊆ (tailW.map (Proc.devRef (τ := τ) .tc)).toFinset := by
  simp only [List.flatten_cons, List.flatten_nil, List.append_nil, List.cons_append, List.nil_append, List.Forall]
  refine ⟨?_, ?_, ?_, ?_, ?_, ?_, ?_, ?_, ?_, ?_, ?_, ?_, ?_⟩ <;>
    exact Finset.singleton_subset_iff.mpr (List.mem_toFinset.mpr (List.mem_map_of_mem (by decide)))

theorem tail_fresh : ∀ ops ∈ (tailOps (F := F)), ∀ op ∈ ops, op.fresh = ∅ := by
  intro ops hops op hop
  simp only [List.mem_cons, List.not_mem_nil, or_false] at hops
  rcases hops with rfl | rfl | rfl | rfl <;> (simp only [List.mem_cons, List.not_mem_nil, or_false] at hop; rcases hop with rfl | rfl | rfl | rfl | rfl <;> rfl)

theorem tail_sub : ∀ ops ∈ (tailOps (F := F)), ∀ op ∈ ops, op.bufs ⊆ Pipeline.ucRefs τ sig := by
  intro ops hops op hop
  refine Pipeline.sub_ucRefs op ?_
  simp only [List.mem_cons, List.not_mem_nil, or_false] at hops
  rcases hops with rfl | rfl | rfl | rfl
  · exact (List.forall_iff_forall_mem.mp hostOps1_sub) op hop
  · exact (List.forall_iff_forall_mem.mp hostOps1_1_sub) op hop
  · exact (List.forall_iff_forall_mem.mp hostOps1_2_sub) op hop
  · exact (List.forall_iff_forall_mem.mp hostOps1_3_sub) op hop

/-- A window's array holds at the exit what the library computes for it: an input its entry contents, the
    accumulator's array what was written back. -/
theorem arr_ne : ∀ w : Fin 5, w ≠ 4 → Pipeline.arrRef spec0 w ≠ main_v10 := by decide
theorem arr_in : ∀ w : Fin 5, w ≠ 4 → (cfg0.win w).isOut = false := by decide
theorem arr_not_written : ∀ w : Fin 5, Pipeline.arrRef spec0 w ∉ tailW := by decide

theorem Vx_arr (c : Dev nD) (w : Fin cfg0.W) : Vx m c (Proc.devRef .tc (Pipeline.arrRef spec0 w)) = (dats m 0 c).arrAt w cfg0.N := by
  by_cases h : w = 4
  · subst h; exact Function.update_self _ _ _
  · exact (Function.update_of_ne (StableHlo.devRef_ne_of_ne (arr_ne w h)) _ _).trans
      (((dats m 0 c).arrAt_in w (arr_in w h) _).trans (A_eq m c w)).symm

/-- A buffer that is no window's array is at the exit as the region found it. -/
theorem Vx_rest (c : Dev nD) (b : Ref sig .tc) (hb : b ∈ Pipeline.restRefs sig spec0) : Vx m c (Proc.devRef .tc b) = V m c b :=
  Function.update_of_ne (StableHlo.devRef_ne_of_ne fun e => (Finset.mem_sdiff.mp hb).2 (Finset.mem_image.mpr ⟨4, Finset.mem_univ _, e.symm⟩)) _ _

/-- The operations after the call write no window's array. -/
theorem Vfin_arr (c : Dev nD) (w : Fin cfg0.W) : Vfin0 m c (Proc.devRef .tc (Pipeline.arrRef spec0 w)) = (dats m 0 c).arrAt w cfg0.N := by
  exact (StableHlo.after_of_writes_sub _ _ tail_writes (arr_not_written w)).trans (Vx_arr m c w)

/-! ## All unscoped buffers as the windows' arrays and the rest -/

theorem arr_unscoped : ∀ w, (Pipeline.arrRef spec0 w).isScoped = false := by decide

/-- The core's unscoped buffers held at a valuation are the windows' arrays, each at its window's share, and the
    buffers that are no window's array — in both directions. -/
theorem held_split (c : Dev nD) (W : Valuation τ sig (Elt F)) :
    (StableHlo.held (c.tc : Thread nD τ) (Pipeline.ucRefs τ sig) W : sProp 𝕄)
      ⊢ iprop((dats m 0 c).arrays (fun w => W (Proc.devRef .tc (Pipeline.arrRef spec0 w))) ∗ Pipeline.unscopedRest spec0 c (fun b => W (Proc.devRef .tc b))) := by
  rw [← Pipeline.unscopedBufs_held (Ix := Unit) (Name := ℕ) (U := UR sig nD τ) (Lvl := ℕ) c W,
    Pipeline.unscopedBufs_split₀ cfgs 0 arr_unscoped c]
  iintro ⟨Ha, Hr⟩
  isplitl [Ha]
  · iapply (arrays_of_arrBufs m c (fun b => W (Proc.devRef .tc b))); iexact Ha
  · iexact Hr

theorem held_join (c : Dev nD) (W : Valuation τ sig (Elt F)) :
    iprop((dats m 0 c).arrays (fun w => W (Proc.devRef .tc (Pipeline.arrRef spec0 w))) ∗ Pipeline.unscopedRest spec0 c (fun b => W (Proc.devRef .tc b)))
      ⊢ (StableHlo.held (c.tc : Thread nD τ) (Pipeline.ucRefs τ sig) W : sProp 𝕄) := by
  rw [← Pipeline.unscopedBufs_held (Ix := Unit) (Name := ℕ) (U := UR sig nD τ) (Lvl := ℕ) c W,
    Pipeline.unscopedBufs_split₀ cfgs 0 arr_unscoped c]
  iintro ⟨Ha, Hr⟩
  isplitl [Ha]
  · iapply (arrBufs_of_arrays m c (fun b => W (Proc.devRef .tc b))); iexact Ha
  · iexact Hr

/-! ## The run -/

theorem hostOps0_fresh : (hostOps0 : List (HloOp τ sig (Elt F))).Forall fun op => op.fresh = ∅ := by
  simp only [List.Forall]; repeat' constructor

/-- @main is the host operations before the call, the call, and the host operations after it. -/
theorem hmain : Pipeline.HMainK (Ix := Unit) (Name := ℕ) (U := UR sig nD τ) (Lvl := ℕ) cfgs 0 defs₀ Variants.none m (main (F := F)) (V m)
    (fun _ => Pipeline.chain ((tailOps (F := F)).map StableHlo.seq)) :=
  Pipeline.hmain_around cfgs 0 defs₀ Variants.none m main [hostOps0] tailOps hostOps0_sub hostOps0_fresh
    (fun c => (main_chain c).trans rfl)

/-- At the exit the windows' arrays and the other buffers are the unscoped buffers held at the exit contents, -/
theorem exit_held (c : Dev nD) :
    iprop((dats m 0 c).arrays ((dats m 0 c).arrAt · cfg0.N) ∗ Pipeline.unscopedRest spec0 c (V m c))
      ⊢ (StableHlo.held (c.tc : Thread nD τ) (Pipeline.ucRefs τ sig) (Vx m c) : sProp 𝕄) := by
  have e1 : (fun w => (dats m 0 c).arrAt w cfg0.N) = fun w => Vx m c (Proc.devRef .tc (Pipeline.arrRef spec0 w)) :=
    funext fun w => (Vx_arr m c w).symm
  have e2 : (Pipeline.unscopedRest spec0 c (V m c) : sProp 𝕄) = Pipeline.unscopedRest spec0 c (fun b => Vx m c (Proc.devRef .tc b)) := by
    unfold Pipeline.unscopedRest; exact bigSep_congr fun b hb => by dsimp only; rw [Vx_rest m c b hb]
  rw [e1, e2]
  exact held_join m c (Vx m c)

/-- and at the end they are split the same way again, the arrays unchanged by the operations after the call. -/
theorem end_split (c : Dev nD) :
    (StableHlo.held (c.tc : Thread nD τ) (Pipeline.ucRefs τ sig) (Vfin0 m c) : sProp 𝕄)
      ⊢ iprop((dats m 0 c).arrays ((dats m 0 c).arrAt · cfg0.N) ∗ Pipeline.unscopedRest spec0 c (Vfin m c)) := by
  have e3 : (fun w => (dats m 0 c).arrAt w cfg0.N) = fun w => Vfin0 m c (Proc.devRef .tc (Pipeline.arrRef spec0 w)) :=
    funext fun w => (Vfin_arr m c w).symm
  rw [e3]
  exact held_split m c (Vfin0 m c)

set_option backward.isDefEq.respectTransparency.types false in
/-- The host operations after the call, run from the region's exit. -/
theorem tail_run (c : Dev nD) (Q' : PUnit → sProp 𝕄) :
    iprop((iprop((dats m 0 c).arrays ((dats m 0 c).arrAt · cfg0.N) ∗ Pipeline.unscopedRest spec0 c (Vfin m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain ((tailOps (F := F)).map StableHlo.seq)) Q' := by
  rw [← List.append_nil ((tailOps (F := F)).map StableHlo.seq)]
  iintro ⟨Hk, Hb, Ha, Hr⟩
  ihave Hh := (exit_held m c) $$ [Ha Hr]
  · isplitl [Ha] <;> iassumption
  iapply (Pipeline.wp_seqs_then (pcfgs (F := F)) defs₀ Variants.none c (Pipeline.ucRefs τ sig) [] tailOps tail_sub tail_fresh (Vx m c)) $$ [Hb Hh]
  · isplitl [Hb] <;> iassumption
  iintro Hb
  rw [Pipeline.chain_nil, wp_pure]
  imodintro
  iapply Hk
  icases Hb with ⟨-, H⟩
  iapply (end_split m c)
  iexact H

set_option maxHeartbeats 2000000 in
set_option backward.isDefEq.respectTransparency.types false in
/-- THE RUN. From any memory with zero counters every weakly fair execution of @main terminates, and ends with every
    window's array at what the library computes from the proof data (the accumulator's array at what the last point
    wrote back) and every other unscoped buffer at the contents after the host operations that follow the call. -/
theorem run_main : θ_run (defs (F := F)) (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vfin m c b) := by
  classical
  exact Pipeline.θ_run_region_noSem_pf_tail (fun p => (cfgs p).toPCfg) (fun p => (cfgs p).toPCfg_adm) (dats m) () cellOf_inj 0 winFacts₀0
    (Pipeline.PreFacts.none _) emb₁ defs₀ Variants.none m ρ main (fun _ => Pipeline.chain ((tailOps (F := F)).map StableHlo.seq))
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m)
    (hsplit := fun c => (arrays_of_arrBufs m c (V m c)).trans (Entails.of_eq (congrArg _ (funext fun w => (A_eq m c w).symm))))
    (hpf := fun _ k => k.elim0)
    (X := fun _ => iprop(emp)) (Y := fun _ => iprop(emp))
    (Z := fun c => Pipeline.unscopedRest spec0 c (V m c))
    (Z' := fun c => Pipeline.unscopedRest spec0 c (Vfin m c))
    (hX := fun c => by
      rw [Pipeline.unscopedRestP_none]
      iintro H; isplitr; · iempintro
      iexact H)
    (hin := fun c => show iprop(_ ∗ _ ∗ Pipeline.scopedRest (Ix := Unit) (Name := ℕ) (U := UR sig nD τ) (Lvl := ℕ) (Val := Elt F) spec0 c) ⊢ Pipeline.scopedRest (Ix := Unit) (Name := ℕ) (U := UR sig nD τ) (Lvl := ℕ) (Val := Elt F) spec0 c from by
      iintro ⟨-, -, HR⟩; iexact HR)
    (hout := fun c => show Pipeline.scopedRest (Ix := Unit) (Name := ℕ) (U := UR sig nD τ) (Lvl := ℕ) (Val := Elt F) spec0 c ⊢ iprop(emp ∗ Pipeline.scopedRest (Ix := Unit) (Name := ℕ) (U := UR sig nD τ) (Lvl := ℕ) (Val := Elt F) spec0 c) from by
      iintro HR; isplitr; · iempintro
      iexact HR)
    (htail := fun c Q' => tail_run m c Q')
    (QY := fun c s => ∀ b ∈ Pipeline.restRefs sig spec0, s.mem ((c.tc : Thread nD τ).loc b) = Vfin m c b)
    (hY := fun c s' => by
      iintro ⟨-, HU, HSI⟩
      unfold Pipeline.unscopedRest
      imodintro
      iapply (pointsTo_read_all (Pipeline.restRefs sig spec0) (fun b => (c.tc : Thread nD τ).loc b) (Vfin m c) s')
      isplitl [HU] <;> iassumption)
    (hQ := fun s h c => ⟨(h c).1, (h c).2.2⟩)

/-! ## The frame, and the result buffer -/

/-- The buffers the host operations before the call write. -/
abbrev headW : List (Ref sig .tc) :=
  [main_v0, main_v1, main_v2, main_v3, main_v4, main_v5, main_cst, main_v6, main_v7, main_cst_0, main_v8, main_cst_1, main_v9]

theorem head_writes : (List.flatten [hostOps0 (F := F)]).Forall fun op => op.writes ⊆ (headW.map (Proc.devRef (τ := τ) .tc)).toFinset := by
  simp only [List.flatten_cons, List.flatten_nil, List.append_nil, List.Forall]
  refine ⟨?_, ?_, ?_, ?_, ?_, ?_, ?_, ?_, ?_, ?_, ?_, ?_, ?_⟩ <;>
    exact Finset.singleton_subset_iff.mpr (List.mem_toFinset.mpr (List.mem_map_of_mem (by decide)))

/-- A buffer that no host operation writes and that is not the accumulator's array ends as it was launched. -/
theorem Vfin_untouched (c : Dev nD) (b : Ref sig .tc) (h1 : b ∉ tailW) (h2 : b ≠ main_v10) (h3 : b ∉ headW) :
    Vfin m c b = m ((c : Thread nD τ).loc b) :=
  (StableHlo.after_of_writes_sub _ _ tail_writes h1).trans
    ((Function.update_of_ne (StableHlo.devRef_ne_of_ne h2) _ _).trans ((StableHlo.after_of_writes_sub _ _ head_writes h3).trans rfl))

theorem arg0_rest : main_arg0 ∈ Pipeline.restRefs sig spec0 := by decide
theorem arg1_rest : main_arg1 ∈ Pipeline.restRefs sig spec0 := by decide
theorem v17_rest : main_v17 ∈ Pipeline.restRefs sig spec0 := by decide

/-- Every run ends with the result buffer at the contents after the last host operation, and the two argument arrays
    as launched. -/
theorem run_result : θ_run (defs (F := F)) (onTc (τ := τ) (main (F := F))) ⟨m, fun _ => 0, ρ⟩ (fun r => ∀ c : Dev nD,
      r.2.mem ((c.tc : Thread nD τ).loc main_v17) = Vfin m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v17 v17_rest,
      ((h c).2 main_arg0 arg0_rest).trans (Vfin_untouched m c main_arg0 (by decide) (by decide) (by decide)),
      ((h c).2 main_arg1 arg1_rest).trans (Vfin_untouched m c main_arg1 (by decide) (by decide) (by decide))⟩) (run_main m ρ)

/-- THE FRAME: every run terminates without a fault and leaves the two argument arrays as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Hand

end
-- ==== Proof.Spec.lean ====
/-
  The quantity both programs compute before their common scalar epilogue.

  From the logits both programs form one score per row, `s = logits[:, 1] - logits[:, 0]`, and from the labels the
  two indicator vectors `pos` and `neg = 1 - pos`. The pairwise term of a row `i` and a column `j` is
  `logistic (s j - s i) * (neg i * pos j)`: the sigmoid of the score difference, kept only where row `i` is a
  negative and column `j` a positive. `pairSum` is the sum of that term over all 16384 x 16384 pairs, as an
  extended real. Addition of extended reals is commutative and associative, so the sum does not depend on the order
  or grouping in which a program accumulates it.
-/
import Idealize.ShloMosaic.PureOps.Ideal
import Idealize.ShloMosaic.Lib.ValueIdx

noncomputable section

open scoped BigOperators

namespace Cert.PairSum

open Idealize.ShloMosaic Idealize.ShloMosaic.ValueIdx

/-- A vector of 16384 extended reals (scores, or an indicator). -/
abbrev V16384 : Type := FVec Ideal (⟨1, ![16384]⟩ : Shape) .f32

/-- The term of the pair (row `i`, column `j`): `logistic (s j - s i) * (neg i * pos j)`. -/
def term (s pos neg : V16384) (i j : Fin 16384) : EReal :=
  Ideal.logistic (s (ix1 j) - s (ix1 i)) * (neg (ix1 i) * pos (ix1 j))

/-- The sum of the pairwise term over every row `i` and every column `j`. -/
def pairSum (s pos neg : V16384) : EReal :=
  ∑ i : Fin 16384, ∑ j : Fin 16384, term s pos neg i j

end Cert.PairSum

end
-- ==== Proof.RefValue.lean ====
/-
  The reference program's total, as the shared pair sum.

  The reference program builds the whole 16384 x 16384 array whose entry at row `i`, column `j` is
  `1 / (1 + exp (-(s j - s i))) * (neg i * pos j)` and adds up every entry, starting from the constant 0, in one
  sum over both axes. Reading the array at an entry through the broadcasts gives exactly the pairwise term of the
  shared definition (the quotient `1 / (1 + exp (-d))` is the logistic function of `d` by definition), and a sum
  over all entries of a two-axis array is the double sum over its row and its column. So the reference's total
  is `pairSum s pos neg` for the reference's own score vector `s` and indicator vectors `pos`, `neg`.
-/
import proofs.«171660_j1717986918748_2_alg».proof.Proof.RefRead
import proofs.«171660_j1717986918748_2_alg».proof.Proof.Spec

noncomputable section

open scoped BigOperators

namespace Cert.ReferenceIdeal.RefValue

open Cert.ReferenceIdeal Cert.ReferenceIdeal.Gen Cert.ReferenceIdeal.ReadP Idealize.ShloMosaic
  Idealize.ShloMosaic.ValueIdx

/-- The single-precision word `0x3F800000` denotes the number 1. -/
theorem ofBits_one_f32 : Ideal.ofBits .f32 0x3F800000#32 = 1 := by
  simp [Ideal.ofBits, Ideal.ieee, -EReal.coe_mul]; norm_num

/-- Through the two broadcasts that spread a vector along the columns, entry `(a, b)` reads the vector at `b`. -/
theorem idx_col (a b : Fin 16384) : idx_main_v10 (idx_main_v12 (ix2 a b)) = ix1 b := by
  funext d; match d with | ⟨0, _⟩ => rfl

/-- Through the two broadcasts that spread a vector along the rows, entry `(a, b)` reads the vector at `a`. -/
theorem idx_row (a b : Fin 16384) : idx_main_v11 (idx_main_v13 (ix2 a b)) = ix1 a := by
  funext d; match d with | ⟨0, _⟩ => rfl

/-- The same for the row broadcast of the negative indicator. -/
theorem idx_row' (a b : Fin 16384) : idx_main_v15 (idx_main_v17 (ix2 a b)) = ix1 a := by
  funext d; match d with | ⟨0, _⟩ => rfl

/-- The same for the column broadcast of the positive indicator. -/
theorem idx_col' (a b : Fin 16384) : idx_main_v16 (idx_main_v18 (ix2 a b)) = ix1 b := by
  funext d; match d with | ⟨0, _⟩ => rfl

/-- One entry of the reference's full array is the pairwise term of the shared definition. -/
theorem entry_eq (x0 : (⟨S16384x2, .f32⟩ : BufTy).Contents (Elt Ideal)) (x1 : (⟨S16384, .i1⟩ : BufTy).Contents (Elt Ideal))
    (a b : Fin 16384) :
    val_main_v26 (F := Ideal) x0 x1 (ix2 a b)
      = Cert.PairSum.term (val_main_v4 (F := Ideal) x0) (val_main_v5 (F := Ideal) x1) (val_main_v7 (F := Ideal) x1) a b := by
  rw [val_main_v26_apply, val_main_v25_apply, val_main_v24_apply, val_main_cst_3_apply, val_main_v23_apply,
    val_main_v22_apply, val_main_cst_2_apply, val_main_v21_apply, val_main_v20_apply, val_main_v14_apply,
    val_main_v12_apply, val_main_v10_apply, val_main_v13_apply, val_main_v11_apply, val_main_v19_apply,
    val_main_v17_apply, val_main_v15_apply, val_main_v18_apply, val_main_v16_apply,
    idx_col, idx_row, idx_row', idx_col']
  generalize val_main_v4 (F := Ideal) x0 = s
  generalize val_main_v5 (F := Ideal) x1 = pos
  generalize val_main_v7 (F := Ideal) x1 = neg
  rw [Ideal.mulf_def, Ideal.hostDivf_def, Ideal.ofBits_def, ofBits_one_f32, Ideal.addf_def, Ideal.hostUnary_exp_def,
    Ideal.hostNegf_def, Ideal.negf_def, Ideal.subf_def, Ideal.mulf_def]
  rfl

/-- THE REFERENCE'S TOTAL: the sum of all entries of its full array is the shared pair sum of its own score vector
    and indicator vectors. -/
theorem total_eq (x0 : (⟨S16384x2, .f32⟩ : BufTy).Contents (Elt Ideal)) (x1 : (⟨S16384, .i1⟩ : BufTy).Contents (Elt Ideal))
    (i : S_.Idx) :
    val_main_v27 (F := Ideal) x0 x1 i
      = Cert.PairSum.pairSum (val_main_v4 (F := Ideal) x0) (val_main_v5 (F := Ideal) x1) (val_main_v7 (F := Ideal) x1) := by
  rw [val_main_v27_apply, val_main_cst_4_apply, Ideal.ofBits_def, Ideal.ofBits_zero_f32, zero_add]
  unfold Cert.PairSum.pairSum
  rw [sum_idx2]
  refine Finset.sum_congr rfl fun a _ => Finset.sum_congr rfl fun b _ => ?_
  exact entry_eq x0 x1 a b

end Cert.ReferenceIdeal.RefValue

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.LibFirstAxisSum.lean ====
/-
  A sum along the first axis, at the ideal instance.

  On the extended reals a vector reduction by addition along the first axis of an `[a, b]` array, started from the neutral
  accumulator, is at column `q` the sum over `d` of the entries `(d, q)`: a sum down the rows (the companion, for the first
  axis, of the row sum along the second axis).
-/
import Idealize.ShloMosaic.Lib.ValueIdx
import Idealize.ShloMosaic.PureOps.Ideal.Laws

noncomputable section

namespace Cert.LibFirstAxisSum

open Idealize.ShloMosaic Idealize.ShloMosaic.ValueIdx

/-- A vector reduction by addition along the first axis of an `[a, b]` array, at column `q`: the sum of that column. -/
theorem multiReduction_add_cols_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (q : Fin b) : multiReduction .add [0] ⟨1, ![b]⟩ src acc h hφ hacc (ix1 q) = ∑ d : Fin a, src (ix2 d q) := by
  refine (Ideal.multiReduction_add_single src acc h hφ hacc (ix1 q)).trans ?_
  refine Finset.sum_congr rfl fun d _ => congrArg src ?_
  funext ax; apply Fin.ext
  match ax with
  | ⟨0, _⟩ => rfl
  | ⟨1, _⟩ => rfl

end Cert.LibFirstAxisSum

end
-- ==== Proof.Payload.lean ====
/-
  The kernel body's arithmetic at one grid point, read at an index, at the ideal instance.

  At one grid point the body holds four vectors of 1024 numbers — row scores s, column scores t, a row indicator n and a
  column indicator m — and a 1×1 accumulator c. It lays s and n as columns [1024, 1] and t and m as rows [1, 1024],
  broadcasts the four to [1024, 1024], and forms the array whose entry (p, q) is

      logistic (t q − s p) · (n p · m q).

  It sums that array along its second axis from the zero accumulator (one number per row p), lays the 1024 row sums as a
  column [1024, 1], sums the column along its first axis from the zero accumulator (one number), lays that number as a 1×1
  array and adds it to c. On the extended reals each of the two reductions from the neutral accumulator is the plain finite
  sum of what it reduces, so the stored 1×1 array reads, at its one index,

      c + ∑ p, ∑ q, logistic (t q − s p) · (n p · m q).

  The reset value is the broadcast of the zero word, which reads 0.

  The proof follows the body's own order from the outside in: the final addition and the cast of a 1×1 array to itself; the
  cast [1] → [1, 1]; the first-axis sum of the column; the cast [1024] → [1024, 1]; the second-axis sum of the array; then the
  entry (p, q) of the array through the pointwise operations, the two kinds of broadcast and the two kinds of cast.
-/
import proofs.«171660_j1717986918748_2_alg».proof.Proof.Gen.KernelIdeal.Skeleton
import proofs.«171660_j1717986918748_2_alg».proof.Proof.LibColumnLayout
import proofs.«171660_j1717986918748_2_alg».proof.Proof.LibFirstAxisSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal

/-! ## The reset value -/

/-- The reset value, the broadcast of the zero word, reads 0 at its one index. -/
theorem pay1_apply (y : S1x1.Idx) : Gen.k0_pay1 (F := Ideal) y = 0 := by
  unfold Gen.k0_pay1
  exact Ideal.ofBits_zero_f32

/-! ## A vector laid as a row or as a column and broadcast to the square -/

/-- A vector of 1024 numbers, cast to itself, laid as the one row [1, 1024] and broadcast down 1024 rows, reads at
    (p, q) the vector at q. -/
theorem rowBroadcast_apply (v : FVec Ideal S1024 .f32) (h0 : S1024.ShapeCasts S1024) (h1 : S1024.ShapeCasts S1x1024)
    (h2 : S1x1024.Broadcasts S1024x1024) (p q : Fin 1024) :
    broadcastTo S1024x1024 (shapeCast S1x1024 (shapeCast S1024 v h0) h1) h2 (ix2 p q) = v (ix1 q) :=
  (broadcastTo_1b_ab_apply _ h2 p q).trans
    ((shapeCast_a_1a_apply _ h1 (0 : Fin 1) q).trans (congrFun (shapeCast_self v h0) (ix1 q)))

/-- A vector of 1024 numbers, cast to itself, laid as the column [1024, 1] and broadcast along 1024 columns, reads at
    (p, q) the vector at p. -/
theorem colBroadcast_apply (v : FVec Ideal S1024 .f32) (h0 : S1024.ShapeCasts S1024) (h1 : S1024.ShapeCasts S1024x1)
    (h2 : S1024x1.Broadcasts S1024x1024) (p q : Fin 1024) :
    broadcastTo S1024x1024 (shapeCast S1024x1 (shapeCast S1024 v h0) h1) h2 (ix2 p q) = v (ix1 p) :=
  (Cert.LibColumnLayout.broadcastTo_a1_ab_apply _ h2 p q).trans
    ((Cert.LibColumnLayout.shapeCast_a_a1_apply _ h1 p (0 : Fin 1)).trans (congrFun (shapeCast_self v h0) (ix1 p)))

/-! ## One entry of the square array -/

/-- The square array's entry (p, q): the logistic of the difference of the column score at q and the row score at p, times
    the product of the row indicator at p and the column indicator at q. Every operation is pointwise; the operands are
    the four broadcasts above. -/
theorem summand_apply (s t n m : FVec Ideal S1024 .f32) (h0 : S1024.ShapeCasts S1024) (hr : S1024.ShapeCasts S1x1024)
    (hc : S1024.ShapeCasts S1024x1) (br : S1x1024.Broadcasts S1024x1024) (bc : S1024x1.Broadcasts S1024x1024)
    (p q : Fin 1024) :
    mulf (logistic (subf (broadcastTo S1024x1024 (shapeCast S1x1024 (shapeCast S1024 t h0) hr) br)
                         (broadcastTo S1024x1024 (shapeCast S1024x1 (shapeCast S1024 s h0) hc) bc)))
         (mulf (broadcastTo S1024x1024 (shapeCast S1024x1 (shapeCast S1024 n h0) hc) bc)
               (broadcastTo S1024x1024 (shapeCast S1x1024 (shapeCast S1024 m h0) hr) br)) (ix2 p q)
      = Ideal.logistic (t (ix1 q) - s (ix1 p)) * (n (ix1 p) * m (ix1 q)) :=
  congrArg₂ (fun a b : EReal => Ideal.logistic a * b)
    (congrArg₂ (fun a b : EReal => a - b) (rowBroadcast_apply t h0 hr br p q) (colBroadcast_apply s h0 hc bc p q))
    (congrArg₂ (fun a b : EReal => a * b) (colBroadcast_apply n h0 hc bc p q) (rowBroadcast_apply m h0 hr br p q))

/-! ## The two reductions -/

/-- The sum of a 1024×1024 array along its second axis, laid as a column, summed along its first axis and laid as a 1×1
    array — both sums from the neutral accumulator — reads, at its one index, the double sum of the array's entries. -/
theorem doubleSum_apply (X : FVec Ideal S1024x1024 .f32) (a1 : BitVec 32) (h1 : S1024x1024.Reduces [1] S1024)
    (hφ1 : FKind.Formats .f32) (hacc1 : a1 = FKind.add.neutral .f32 hφ1) (c1 : S1024.ShapeCasts S1024x1)
    (a0 : BitVec 32) (h0 : S1024x1.Reduces [0] S1) (hφ0 : FKind.Formats .f32) (hacc0 : a0 = FKind.add.neutral .f32 hφ0)
    (c0 : S1.ShapeCasts S1x1) (y : S1x1.Idx) :
    shapeCast S1x1
        (multiReduction .add [0] S1 (shapeCast S1024x1 (multiReduction .add [1] S1024 X a1 h1 hφ1 hacc1) c1) a0 h0 hφ0 hacc0)
        c0 y
      = ∑ p : Fin 1024, ∑ q : Fin 1024, X (ix2 p q) := by
  obtain ⟨u, i, rfl⟩ : ∃ (u : Fin 1) (i : Fin 1), y = ix2 u i := ⟨y 0, y 1, eq_ix2 y⟩
  refine (shapeCast_a_1a_apply _ c0 u i).trans ?_
  refine (Cert.LibFirstAxisSum.multiReduction_add_cols_apply _ a0 h0 hφ0 hacc0 i).trans ?_
  refine Finset.sum_congr rfl fun p _ => ?_
  refine (Cert.LibColumnLayout.shapeCast_a_a1_apply _ c1 p i).trans ?_
  exact Cert.LibColumnLayout.multiReduction_add_rows_apply X a1 h1 hφ1 hacc1 p

/-! ## The stored value -/

/-- The value the body stores, at its one index: the accumulator it loaded plus the double sum over rows p and columns q
    of logistic (t q − s p) · (n p · m q). -/
theorem pay2_apply (v5 v7 v9 v11 : Vec Ideal S1024 .f32) (v29 : Vec Ideal S1x1 .f32) (y : S1x1.Idx) :
    Gen.k0_pay2 (F := Ideal) v5 v7 v9 v11 v29 y
      = v29 y + ∑ p : Fin 1024, ∑ q : Fin 1024,
          Ideal.logistic (v7 (ix1 q) - v5 (ix1 p)) * (v9 (ix1 p) * v11 (ix1 q)) := by
  unfold Gen.k0_pay2
  refine congrArg₂ (fun a b : EReal => a + b) (congrFun (shapeCast_self v29 _) y) ?_
  refine (doubleSum_apply _ _ _ _ _ _ _ _ _ _ _ y).trans ?_
  refine Finset.sum_congr rfl fun p _ => Finset.sum_congr rfl fun q _ => ?_
  exact summand_apply v5 v7 v9 v11 _ _ _ _ _ p q

end Cert.KernelIdeal.Hand

end
-- ==== Proof.LibSumChunks.lean ====
/-
  Sums over a range of length n * m taken chunk by chunk.

  In any commutative additive monoid, a sum over `Fin N` with `N = n * m` is the sum over the `n` consecutive
  chunks of length `m`: position `m * c + k` is entry `k` of chunk `c`. This is the re-association that turns
  a contraction computed as a few partial contractions over consecutive slices of the contracted axis, added up
  in order, into the one contraction over the whole axis. Only associativity and commutativity of `+` are used,
  so it holds in the extended reals with no finiteness assumption.
-/
import Mathlib.Algebra.BigOperators.Fin
import Mathlib.Logic.Equiv.Fin.Basic

namespace LibSumChunks

open Finset

/-- Entry `k` of chunk `c` sits at position `m * c + k`, inside the range. -/
theorem chunk_lt {N n m : ℕ} (h : N = n * m) (c : Fin n) (k : Fin m) : m * c.val + k.val < N := by
  subst h
  calc m * c.val + k.val < m * c.val + m := Nat.add_lt_add_left k.isLt _
    _ = m * (c.val + 1) := (Nat.mul_succ m c.val).symm
    _ ≤ m * n := Nat.mul_le_mul_left m c.isLt
    _ = n * m := Nat.mul_comm m n

/-- A sum over `Fin N`, `N = n * m`, is the sum over the `n` chunks of the sums over each chunk's `m` entries. -/
theorem sum_chunks {M : Type*} [AddCommMonoid M] {N : ℕ} (n m : ℕ) (h : N = n * m) (f : Fin N → M) :
    ∑ i : Fin N, f i = ∑ c : Fin n, ∑ k : Fin m, f ⟨m * c.val + k.val, chunk_lt h c k⟩ := by
  subst h
  rw [← (finProdFinEquiv (m := n) (n := m)).sum_comp, Fintype.sum_prod_type]
  refine Finset.sum_congr rfl fun c _ => Finset.sum_congr rfl fun k _ => congrArg f (Fin.ext ?_)
  show (k.val + m * c.val : ℕ) = m * c.val + k.val
  exact Nat.add_comm _ _

/-- Four chunks, written out in the order a left-to-right accumulation adds them, starting from zero. -/
theorem sum_four_chunks {M : Type*} [AddCommMonoid M] {N : ℕ} (m : ℕ) (h : N = 4 * m) (f : Fin N → M) :
    ∑ i : Fin N, f i
      = (((0 + ∑ k : Fin m, f ⟨m * 0 + k.val, chunk_lt h 0 k⟩) + ∑ k : Fin m, f ⟨m * 1 + k.val, chunk_lt h 1 k⟩)
          + ∑ k : Fin m, f ⟨m * 2 + k.val, chunk_lt h 2 k⟩) + ∑ k : Fin m, f ⟨m * 3 + k.val, chunk_lt h 3 k⟩ := by
  rw [sum_chunks 4 m h f, Fin.sum_univ_four, zero_add]
  rfl

end LibSumChunks
-- ==== Proof.LibTileSum.lean ====
/-
  A sum over a square taken tile by tile.

  In any commutative additive monoid, the sum of `f i j` over all pairs `(i, j)` of a square of side `n * m` is
  the sum over an `n` by `n` grid of `m` by `m` tiles: the tile in tile-row `r` and tile-column `c` holds the pairs
  `(r * m + p, c * m + q)` with `p, q < m`. The grid is walked by one counter `t < n * n`, which stands for
  tile-row `t / n` and tile-column `t % n`. Only associativity and commutativity of `+` are used, so the statement
  holds in the extended reals with no finiteness assumption. This is the re-association that turns a total
  accumulated one tile at a time, one grid step after another, into the plain double sum.
-/
import Mathlib.Algebra.BigOperators.Fin
import Mathlib.Logic.Equiv.Fin.Basic
import proofs.«171660_j1717986918748_2_alg».proof.Proof.LibSumChunks

namespace LibTileSum

open Finset

/-- Entry `p` of block `c` (blocks of length `m`, `n` of them) sits at position `c * m + p`, inside the range. -/
theorem block_lt {n m : ℕ} (c : Fin n) (p : Fin m) : c.val * m + p.val < n * m := by
  calc c.val * m + p.val < c.val * m + m := Nat.add_lt_add_left p.isLt _
    _ = (c.val + 1) * m := (Nat.succ_mul c.val m).symm
    _ ≤ n * m := Nat.mul_le_mul_right m c.isLt

/-- A grid counter `t < n * n` has its tile-row `t / n` below `n`. -/
theorem div_lt {n : ℕ} (t : Fin (n * n)) : t.val / n < n :=
  Nat.div_lt_of_lt_mul t.isLt

/-- A grid counter `t < n * n` has its tile-column `t % n` below `n` (a counter exists, so `n` is positive). -/
theorem mod_lt {n : ℕ} (t : Fin (n * n)) : t.val % n < n := by
  refine Nat.mod_lt _ (Nat.pos_of_ne_zero fun h => ?_)
  subst h
  exact absurd t.isLt (by simp)

/-- Row `p` of the tile at grid counter `t` is row `(t / n) * m + p` of the square. -/
theorem tile_row_lt {n m : ℕ} (t : Fin (n * n)) (p : Fin m) : (t.val / n) * m + p.val < n * m :=
  block_lt ⟨t.val / n, div_lt t⟩ p

/-- Column `q` of the tile at grid counter `t` is column `(t % n) * m + q` of the square. -/
theorem tile_col_lt {n m : ℕ} (t : Fin (n * n)) (q : Fin m) : (t.val % n) * m + q.val < n * m :=
  block_lt ⟨t.val % n, mod_lt t⟩ q

variable {M : Type*} [AddCommMonoid M]

/-- A sum over a range of length `n * m` is the sum over its `n` blocks of the sums over each block's `m` entries,
    entry `p` of block `c` at position `c * m + p`. -/
theorem sum_blocks (n m : ℕ) (g : Fin (n * m) → M) :
    ∑ i : Fin (n * m), g i = ∑ c : Fin n, ∑ p : Fin m, g ⟨c.val * m + p.val, block_lt c p⟩ := by
  rw [LibSumChunks.sum_chunks n m rfl g]
  refine Finset.sum_congr rfl fun c _ => Finset.sum_congr rfl fun p _ => congrArg g (Fin.ext ?_)
  show m * c.val + p.val = c.val * m + p.val
  rw [Nat.mul_comm]

/-- A sum over the grid counter `t < n * n` of a function of the tile-row `t / n` and the tile-column `t % n` is the
    double sum over tile-rows and tile-columns. -/
theorem sum_grid (n : ℕ) (H : Fin n × Fin n → M) :
    ∑ t : Fin (n * n), H (⟨t.val / n, div_lt t⟩, ⟨t.val % n, mod_lt t⟩) = ∑ r : Fin n, ∑ c : Fin n, H (r, c) := by
  rw [← Fintype.sum_prod_type]
  exact Equiv.sum_comp (finProdFinEquiv (m := n) (n := n)).symm H

/-- THE SUM OVER A SQUARE, TILE BY TILE: the sum over an `n` by `n` grid of `m` by `m` tiles, the grid counter `t`
    standing for tile-row `t / n` and tile-column `t % n`, is the sum over the whole square of side `n * m`. -/
theorem sum_tiles (n m : ℕ) (f : Fin (n * m) → Fin (n * m) → M) :
    ∑ t : Fin (n * n), ∑ p : Fin m, ∑ q : Fin m,
        f ⟨(t.val / n) * m + p.val, tile_row_lt t p⟩ ⟨(t.val % n) * m + q.val, tile_col_lt t q⟩
      = ∑ i : Fin (n * m), ∑ j : Fin (n * m), f i j := by
  calc ∑ t : Fin (n * n), ∑ p : Fin m, ∑ q : Fin m,
          f ⟨(t.val / n) * m + p.val, tile_row_lt t p⟩ ⟨(t.val % n) * m + q.val, tile_col_lt t q⟩
      = ∑ r : Fin n, ∑ c : Fin n, ∑ p : Fin m, ∑ q : Fin m,
          f ⟨r.val * m + p.val, block_lt r p⟩ ⟨c.val * m + q.val, block_lt c q⟩ :=
        sum_grid n fun rc => ∑ p : Fin m, ∑ q : Fin m,
          f ⟨rc.1.val * m + p.val, block_lt rc.1 p⟩ ⟨rc.2.val * m + q.val, block_lt rc.2 q⟩
    _ = ∑ r : Fin n, ∑ p : Fin m, ∑ c : Fin n, ∑ q : Fin m,
          f ⟨r.val * m + p.val, block_lt r p⟩ ⟨c.val * m + q.val, block_lt c q⟩ :=
        Finset.sum_congr rfl fun r _ => Finset.sum_comm
    _ = ∑ r : Fin n, ∑ p : Fin m, ∑ j : Fin (n * m), f ⟨r.val * m + p.val, block_lt r p⟩ j :=
        Finset.sum_congr rfl fun r _ => Finset.sum_congr rfl fun p _ =>
          (sum_blocks n m (f ⟨r.val * m + p.val, block_lt r p⟩)).symm
    _ = ∑ i : Fin (n * m), ∑ j : Fin (n * m), f i j :=
        (sum_blocks n m fun i => ∑ j : Fin (n * m), f i j).symm

/-- Row `p` of the tile at grid counter `t`, at the sizes 16 by 16 tiles of side 1024. -/
theorem tile_row_lt_16_1024 (t : Fin 256) (p : Fin 1024) : (t.val / 16) * 1024 + p.val < 16384 := by
  have ht := t.isLt
  have hp := p.isLt
  omega

/-- Column `q` of the tile at grid counter `t`, at the sizes 16 by 16 tiles of side 1024. -/
theorem tile_col_lt_16_1024 (t : Fin 256) (q : Fin 1024) : (t.val % 16) * 1024 + q.val < 16384 := by
  have hq := q.isLt
  omega

/-- The sum over a square of side 16384, as a 16 by 16 grid of tiles of side 1024 walked by one counter `t < 256`. -/
theorem sum_tiles_16_1024 (f : Fin 16384 → Fin 16384 → M) :
    ∑ t : Fin 256, ∑ p : Fin 1024, ∑ q : Fin 1024,
        f ⟨(t.val / 16) * 1024 + p.val, tile_row_lt_16_1024 t p⟩ ⟨(t.val % 16) * 1024 + q.val, tile_col_lt_16_1024 t q⟩
      = ∑ i : Fin 16384, ∑ j : Fin 16384, f i j :=
  sum_tiles 16 1024 f

end LibTileSum
-- ==== Proof.KernelIdealValue.lean ====
/-
  The kernel region's 1 x 1 result array, at the ideal instance, in closed form: the pair sum.

  The region walks a 16 x 16 grid of points, the second coordinate fastest. At the point with counter `t` it holds
  block `t / 16` of the negative indicator and of the scores (the rows) and block `t % 16` of the positive indicator and
  of the scores (the columns), blocks of 1024 entries, and adds to its 1 x 1 accumulator the sum over the 1024 x 1024
  pairs (p, q) of `logistic (s col − s row) · (neg row · pos col)` with `row = (t / 16) · 1024 + p` and
  `col = (t % 16) · 1024 + q`: the pairwise term summed over one tile of the 16384 x 16384 square of all pairs. The
  accumulator starts from zero at the first point and is carried from point to point, so after point `n` it holds the
  sum of the tile sums of the points `0, …, n`; after the last point, all 256 tiles, which fill the square: the pair sum.
  The accumulator is written back once, after the last point, and its block is the whole 1 x 1 array, so that is what
  the result array holds after the region. Sums are of extended reals, where addition is commutative and associative:
  no finiteness is needed.
-/
import proofs.«171660_j1717986918748_2_alg».proof.Proof.KernelIdealRegion
import proofs.«171660_j1717986918748_2_alg».proof.Proof.Payload
import proofs.«171660_j1717986918748_2_alg».proof.Proof.Spec
import proofs.«171660_j1717986918748_2_alg».proof.Proof.LibTileSum
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

/-! ## Which block each window holds at a grid point

The grid is 16 by 16 with the second coordinate fastest, so the point with counter `t` has first coordinate `t / 16`
and second coordinate `t % 16`. The windows on the negative indicator and on the row scores (0 and 2) take the block
numbered by the first coordinate, the windows on the positive indicator and on the column scores (1 and 3) the block
numbered by the second; the accumulator's window (4) always takes the one block of its 1 x 1 array. -/

/-- The block indices of the five windows at the point with counter `t`, decided over the 256 points. -/
theorem index_facts : ∀ t : Fin cfg0.N, win0_0.index t (0 : Fin 1) = t.val / 16 ∧ win0_1.index t (0 : Fin 1) = t.val % 16
    ∧ win0_2.index t (0 : Fin 1) = t.val / 16 ∧ win0_3.index t (0 : Fin 1) = t.val % 16
    ∧ win0_4.index t (0 : Fin 2) = 0 ∧ win0_4.index t (1 : Fin 2) = 0 :=
  (by decide +kernel : ∀ t : Fin grid0.N, _)

/-- A grid counter is below 256. -/
theorem lt_256 (t : Fin cfg0.N) : t.val < 256 := lt_of_lt_of_eq t.isLt (show cfg0.N = 256 from N_0)

/-- The grid counter as a number below 256. -/
abbrev tile (t : Fin cfg0.N) : Fin 256 := ⟨t.val, lt_256 t⟩

/-! ## The four input blocks at an index

Entry `p` of block `b` of a vector cut into blocks of 1024 is the vector's entry `b * 1024 + p`. -/

/-- Window 0 at point `t`: the negative indicator's entries `(t / 16) * 1024 + p`. -/
theorem iblk0_apply (t : Fin cfg0.N) (p : Fin 1024) :
    (iblk (F := Ideal) m c 0 t : Vec Ideal S1024 .f32) (ix1 p)
      = (V (F := Ideal) m c main_v7 : S16384.Idx → EReal)
          (ix1 ⟨(t.val / 16) * 1024 + p.val, LibTileSum.tile_row_lt_16_1024 (tile t) p⟩) := by
  unfold iblk
  rw [View.read_apply]
  show V m c main_v7 (((cfg0.win 0).blk t).view.emb (ix1 p)) = V m c main_v7 _
  refine congrArg (V m c main_v7) ?_
  funext a; apply Fin.ext
  match a with
  | ⟨0, _⟩ =>
    show win0_0.index t (0 : Fin 1) * 1024 + 1 * p.val = (t.val / 16) * 1024 + p.val
    rw [(index_facts t).1]; omega

/-- Window 1 at point `t`: the positive indicator's entries `(t % 16) * 1024 + q`. -/
theorem iblk1_apply (t : Fin cfg0.N) (q : Fin 1024) :
    (iblk (F := Ideal) m c 1 t : Vec Ideal S1024 .f32) (ix1 q)
      = (V (F := Ideal) m c main_v5 : S16384.Idx → EReal)
          (ix1 ⟨(t.val % 16) * 1024 + q.val, LibTileSum.tile_col_lt_16_1024 (tile t) q⟩) := by
  unfold iblk
  rw [View.read_apply]
  show V m c main_v5 (((cfg0.win 1).blk t).view.emb (ix1 q)) = V m c main_v5 _
  refine congrArg (V m c main_v5) ?_
  funext a; apply Fin.ext
  match a with
  | ⟨0, _⟩ =>
    show win0_1.index t (0 : Fin 1) * 1024 + 1 * q.val = (t.val % 16) * 1024 + q.val
    rw [(index_facts t).2.1]; omega

/-- Window 2 at point `t`: the scores' entries `(t / 16) * 1024 + p` (the row scores). -/
theorem iblk2_apply (t : Fin cfg0.N) (p : Fin 1024) :
    (iblk (F := Ideal) m c 2 t : Vec Ideal S1024 .f32) (ix1 p)
      = (V (F := Ideal) m c main_v4 : S16384.Idx → EReal)
          (ix1 ⟨(t.val / 16) * 1024 + p.val, LibTileSum.tile_row_lt_16_1024 (tile t) p⟩) := by
  unfold iblk
  rw [View.read_apply]
  show V m c main_v4 (((cfg0.win 2).blk t).view.emb (ix1 p)) = V m c main_v4 _
  refine congrArg (V m c main_v4) ?_
  funext a; apply Fin.ext
  match a with
  | ⟨0, _⟩ =>
    show win0_2.index t (0 : Fin 1) * 1024 + 1 * p.val = (t.val / 16) * 1024 + p.val
    rw [(index_facts t).2.2.1]; omega

/-- Window 3 at point `t`: the scores' entries `(t % 16) * 1024 + q` (the column scores). -/
theorem iblk3_apply (t : Fin cfg0.N) (q : Fin 1024) :
    (iblk (F := Ideal) m c 3 t : Vec Ideal S1024 .f32) (ix1 q)
      = (V (F := Ideal) m c main_v4 : S16384.Idx → EReal)
          (ix1 ⟨(t.val % 16) * 1024 + q.val, LibTileSum.tile_col_lt_16_1024 (tile t) q⟩) := by
  unfold iblk
  rw [View.read_apply]
  show V m c main_v4 (((cfg0.win 3).blk t).view.emb (ix1 q)) = V m c main_v4 _
  refine congrArg (V m c main_v4) ?_
  funext a; apply Fin.ext
  match a with
  | ⟨0, _⟩ =>
    show win0_3.index t (0 : Fin 1) * 1024 + 1 * q.val = (t.val % 16) * 1024 + q.val
    rw [(index_facts t).2.2.2.1]; omega

/-! ## The accumulator after each point -/

/-- The sum of the pairwise term over one tile: rows `(t / 16) * 1024 + p`, columns `(t % 16) * 1024 + q`. -/
def tileSum (s pos neg : Cert.PairSum.V16384) (t : Fin 256) : EReal :=
  ∑ p : Fin 1024, ∑ q : Fin 1024,
    Cert.PairSum.term s pos neg ⟨(t.val / 16) * 1024 + p.val, LibTileSum.tile_row_lt_16_1024 t p⟩
      ⟨(t.val % 16) * 1024 + q.val, LibTileSum.tile_col_lt_16_1024 t q⟩

/-- One point's payload, over variables: if the four blocks read the scores and the indicators at the rows and the
    columns of tile `t`, the payload at its one index is what the accumulator held plus the tile sum of `t`. -/
theorem pay2_tile (s pos neg : Cert.PairSum.V16384) (t : Fin 256) (v5 v7 v9 v11 : Vec Ideal S1024 .f32)
    (acc : Vec Ideal S1x1 .f32)
    (h5 : ∀ p : Fin 1024, v5 (ix1 p) = s (ix1 ⟨(t.val / 16) * 1024 + p.val, LibTileSum.tile_row_lt_16_1024 t p⟩))
    (h7 : ∀ q : Fin 1024, v7 (ix1 q) = s (ix1 ⟨(t.val % 16) * 1024 + q.val, LibTileSum.tile_col_lt_16_1024 t q⟩))
    (h9 : ∀ p : Fin 1024, v9 (ix1 p) = neg (ix1 ⟨(t.val / 16) * 1024 + p.val, LibTileSum.tile_row_lt_16_1024 t p⟩))
    (h11 : ∀ q : Fin 1024, v11 (ix1 q) = pos (ix1 ⟨(t.val % 16) * 1024 + q.val, LibTileSum.tile_col_lt_16_1024 t q⟩))
    (y : S1x1.Idx) :
    k0_pay2 (F := Ideal) v5 v7 v9 v11 acc y = acc y + tileSum s pos neg t := by
  rw [pay2_apply]
  unfold tileSum
  refine congrArg (fun b : EReal => acc y + b) ?_
  refine Finset.sum_congr rfl fun p _ => Finset.sum_congr rfl fun q _ => ?_
  rw [h5, h7, h9, h11]
  rfl

/-- The payload at grid point `t`, of that point's four blocks over an accumulator `acc`. -/
theorem pay2_at (t : Fin cfg0.N) (acc : Vec Ideal S1x1 .f32) (y : S1x1.Idx) :
    k0_pay2 (F := Ideal) (iblk m c 2 t) (iblk m c 3 t) (iblk m c 0 t) (iblk m c 1 t) acc y
      = acc y + tileSum (V m c main_v4) (V m c main_v5) (V m c main_v7) (tile t) :=
  pay2_tile (V m c main_v4) (V m c main_v5) (V m c main_v7) (tile t) (iblk m c 2 t) (iblk m c 3 t) (iblk m c 0 t)
    (iblk m c 1 t) acc (iblk2_apply m c t) (iblk3_apply m c t) (iblk0_apply m c t) (iblk1_apply m c t) y

/-- THE ACCUMULATOR AFTER POINT `n` is the sum of the tile sums of the points `0, …, n`: the first point adds its
    tile sum to the zero block, each later point adds its own to what the point before left. -/
theorem accAt_apply : ∀ (n : ℕ) (hn : n < cfg0.N) (y : S1x1.Idx),
    accAt (F := Ideal) m c n hn y
      = ∑ t' : Fin (n + 1), tileSum (V m c main_v4) (V m c main_v5) (V m c main_v7)
          ⟨t'.val, lt_of_lt_of_le t'.isLt (Nat.succ_le_of_lt (lt_256 ⟨n, hn⟩))⟩
  | 0, hn, y => by
    rw [Fin.sum_univ_one]
    show k0_pay2 (iblk m c 2 ⟨0, hn⟩) (iblk m c 3 ⟨0, hn⟩) (iblk m c 0 ⟨0, hn⟩) (iblk m c 1 ⟨0, hn⟩) (k0_pay1 (F := Ideal)) y = _
    rw [pay2_at m c ⟨0, hn⟩ (k0_pay1 (F := Ideal)) y, pay1_apply, zero_add]
    rfl
  | n + 1, hn, y => by
    rw [Fin.sum_univ_castSucc]
    show k0_pay2 (iblk m c 2 ⟨n + 1, hn⟩) (iblk m c 3 ⟨n + 1, hn⟩) (iblk m c 0 ⟨n + 1, hn⟩) (iblk m c 1 ⟨n + 1, hn⟩)
      (accAt m c n (Nat.lt_of_succ_lt hn)) y = _
    rw [pay2_at m c ⟨n + 1, hn⟩ (accAt m c n (Nat.lt_of_succ_lt hn)) y, accAt_apply n (Nat.lt_of_succ_lt hn) y]
    rfl

/-- AFTER THE LAST POINT the accumulator holds the whole pair sum: the 256 tiles, 16 by 16 of side 1024, fill the
    16384 by 16384 square of all pairs. -/
theorem acc_total (y : S1x1.Idx) :
    accAt (F := Ideal) m c 255 (by rw [show cfg0.N = 256 from N_0]; omega) y
      = Cert.PairSum.pairSum (V m c main_v4) (V m c main_v5) (V m c main_v7) := by
  rw [accAt_apply m c 255 _ y]
  show ∑ t : Fin 256, tileSum (V m c main_v4) (V m c main_v5) (V m c main_v7) t = _
  unfold tileSum Cert.PairSum.pairSum
  exact LibTileSum.sum_tiles_16_1024
    (fun i j => Cert.PairSum.term (V m c main_v4) (V m c main_v5) (V m c main_v7) i j)

/-! ## The result array after the region -/

/-- THE 1 x 1 RESULT ARRAY after the region holds the pair sum. The accumulator is written back once, after the
    last point; its block is the whole array, so what is written there is what the array ends holding. -/
theorem out_final :
    (dats (F := Ideal) m 0 c).arrAt 4 cfg0.N
      = fun _ => Cert.PairSum.pairSum (V m c main_v4) (V m c main_v5) (V m c main_v7) := by
  have hN : (255 : ℕ) < cfg0.N := by rw [show cfg0.N = 256 from N_0]; omega
  refine (dats (F := Ideal) m 0 c).arrAt_eq_of_cover 4 _ (fun t hf => ?_) (fun i => ?_)
  · -- the one point that writes back is the last; what it writes is the accumulator after it, read at any index
    have h255 : t.val = 255 := by
      have h1 := (flush0_4 t).mp hf
      have h2 := lt_256 t
      omega
    obtain ⟨n, hn⟩ := t
    obtain rfl : n = 255 := h255
    show (cfg0.win 4).cut (grid0.coords ⟨255, hn⟩) ((dats m 0 c).after 4 ⟨255, hn⟩) = _
    rw [after0_4]
    funext y
    rw [View.read_apply]
    have hacc : ∀ y' : S1x1.Idx, accAt (F := Ideal) m c (⟨255, hn⟩ : Fin cfg0.N).val (⟨255, hn⟩ : Fin cfg0.N).isLt y'
        = Cert.PairSum.pairSum (V m c main_v4) (V m c main_v5) (V m c main_v7) := fun y' => acc_total m c y'
    generalize accAt (F := Ideal) m c (⟨255, hn⟩ : Fin cfg0.N).val (⟨255, hn⟩ : Fin cfg0.N).isLt = X at hacc ⊢
    generalize Cert.PairSum.pairSum (V m c main_v4) (V m c main_v5) (V m c main_v7) = P at hacc ⊢
    show X _ = P
    exact hacc _
  · -- every index of the 1 x 1 array lies in the last point's block, which is the whole array
    refine ⟨⟨255, hN⟩, (flush0_4 _).mpr rfl, ?_⟩
    show i ∈ ((View.whole main_v10).slice (win0_4.rect ⟨255, hN⟩)).set
    rw [View.set_slice_whole, Rect.mem_set_unit]
    intro a
    match a with
    | ⟨0, h0⟩ =>
      show win0_4.index ⟨255, hN⟩ (0 : Fin 2) * 1 ≤ (i ⟨0, h0⟩).val ∧ (i ⟨0, h0⟩).val < win0_4.index ⟨255, hN⟩ (0 : Fin 2) * 1 + 1
      rw [(index_facts ⟨255, hN⟩).2.2.2.2.1]
      have hi : (i ⟨0, h0⟩).val < 1 := (i ⟨0, h0⟩).isLt
      omega
    | ⟨1, h1⟩ =>
      show win0_4.index ⟨255, hN⟩ (1 : Fin 2) * 1 ≤ (i ⟨1, h1⟩).val ∧ (i ⟨1, h1⟩).val < win0_4.index ⟨255, hN⟩ (1 : Fin 2) * 1 + 1
      rw [(index_facts ⟨255, hN⟩).2.2.2.2.2]
      have hi : (i ⟨1, h1⟩).val < 1 := (i ⟨1, h1⟩).isLt
      omega

end Cert.KernelIdeal.Hand

end
-- ==== Proof.Bridge.lean ====
import proofs.«171660_j1717986918748_2_alg».proof.Proof.Gen.KernelIdeal.Launch
import proofs.«171660_j1717986918748_2_alg».proof.Proof.Gen.KernelIdeal.Skeleton
import proofs.«171660_j1717986918748_2_alg».proof.Proof.Gen.KernelIdeal.Points
import proofs.«171660_j1717986918748_2_alg».proof.Proof.KernelIdealRun
import proofs.«171660_j1717986918748_2_alg».proof.Proof.RefValue
import proofs.«171660_j1717986918748_2_alg».proof.Proof.KernelIdealValue
import Idealize.ShloMosaic.Lib.Pipeline.Frame
import Idealize.ShloMosaic.Lib.Pipeline.FrameSuffix
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReferenceIdeal.ReadP (val_main_v4 val_main_v5 val_main_v7 val_main_v8 val_main_v9 val_main_v27 val_main_v33 val_main_v33_eq)

/-! ## The two results are one function of the arguments

Both programs end with the same scalar epilogue: with `P` the pairwise sum and `d = (∑ pos) · (∑ neg)`, the result is
`1 - P / d` where `d > 0` and `0` elsewhere (the divisor replaced by 1 where `d` is not positive). The kernel's
program feeds it the accumulator's final value, the reference the total of its 16384 × 16384 array; both are
`pairSum` of the same scores and indicators, which the two programs compute from the arguments by the same host
operations. -/

/-- The common scalar epilogue, as the host operations spell it. -/
def epilogue (P p8 p9 : FVec Ideal S_ .f32) : FVec Ideal S_ .f32 :=
  select (cmpf (F := Ideal) .ogt (mulf p8 p9) (constant (F := Ideal) S_ .f32 0x00000000#32))
    (subf (constant (F := Ideal) S_ .f32 0x3F800000#32)
      (Host.divf (F := Ideal) P
        (select (cmpf (F := Ideal) .ogt (mulf p8 p9) (constant (F := Ideal) S_ .f32 0x00000000#32)) (mulf p8 p9)
          (id (constant (F := Ideal) S_ .f32 0x3F800000#32)))))
    (id (constant (F := Ideal) S_ .f32 0x00000000#32))

variable (m : (ℓ : Loc nD τ sig) → Buf (Elt Ideal) ℓ) (c : Dev nD)

/-- The two argument arrays as launched. -/
abbrev a0 : (⟨S16384x2, .f32⟩ : BufTy).Contents (Elt Ideal) := m ((c.tc : Thread nD τ).loc main_arg0)
abbrev a1 : (⟨S16384, .i1⟩ : BufTy).Contents (Elt Ideal) := m ((c.tc : Thread nD τ).loc main_arg1)

/-- What the region finds in the scores, the two indicators and their two sums: the reference's stages of the same
    names, the host operations before the call being the reference's first operations. -/
theorem V_v4 : V m c main_v4 = val_main_v4 (F := Ideal) (a0 m c) := by
  dsimp only [V, V0]
  simp only [List.flatten_cons, List.flatten_nil, List.append_nil]
  after_results
  rfl
theorem V_v5 : V m c main_v5 = val_main_v5 (F := Ideal) (a1 m c) := by
  dsimp only [V, V0]
  simp only [List.flatten_cons, List.flatten_nil, List.append_nil]
  after_results
  rfl
theorem V_v7 : V m c main_v7 = val_main_v7 (F := Ideal) (a1 m c) := by
  dsimp only [V, V0]
  simp only [List.flatten_cons, List.flatten_nil, List.append_nil]
  after_results
  rfl
theorem V_v8 : V m c main_v8 = val_main_v8 (F := Ideal) (a1 m c) := by
  dsimp only [V, V0]
  simp only [List.flatten_cons, List.flatten_nil, List.append_nil]
  after_results
  rfl
theorem V_v9 : V m c main_v9 = val_main_v9 (F := Ideal) (a1 m c) := by
  dsimp only [V, V0]
  simp only [List.flatten_cons, List.flatten_nil, List.append_nil]
  after_results
  rfl

/-- The result buffer after the host operations that follow the call, from any contents `W` of the unscoped buffers:
    the epilogue of the accumulator's array (reshaped to a scalar) and the two sums. -/
theorem tail_v17 (W : Valuation τ sig (Elt Ideal)) :
    StableHlo.after (List.flatten (tailOps (F := Ideal))) W (Proc.devRef .tc main_v17)
      = epilogue (shapeCast S_ (W (Proc.devRef .tc main_v10)) shapeCasts_S1x1_S_) (W (Proc.devRef .tc main_v8)) (W (Proc.devRef .tc main_v9)) := by
  simp only [List.flatten_cons, List.flatten_nil, List.append_nil, List.cons_append, List.nil_append]
  after_results
  rfl

/-- The kernel program's result buffer. -/
theorem Vfin_v17 : Vfin m c main_v17
    = epilogue (shapeCast S_ (Vx m c (Proc.devRef .tc main_v10)) shapeCasts_S1x1_S_) (Vx m c (Proc.devRef .tc main_v8)) (Vx m c (Proc.devRef .tc main_v9)) :=
  tail_v17 (Vx m c)

/-- The reference's result: the epilogue of its total and the two sums. -/
theorem ref_v33 (x0 : (⟨S16384x2, .f32⟩ : BufTy).Contents (Elt Ideal)) (x1 : (⟨S16384, .i1⟩ : BufTy).Contents (Elt Ideal)) :
    val_main_v33 (F := Ideal) x0 x1 = epilogue (val_main_v27 (F := Ideal) x0 x1) (val_main_v8 (F := Ideal) x1) (val_main_v9 (F := Ideal) x1) := rfl

/-- The kernel program's result as a function of the two argument arrays. -/
theorem kernel_result : Vfin m c main_v17
    = epilogue (fun _ => Cert.PairSum.pairSum (val_main_v4 (F := Ideal) (a0 m c)) (val_main_v5 (F := Ideal) (a1 m c)) (val_main_v7 (F := Ideal) (a1 m c)))
        (val_main_v8 (F := Ideal) (a1 m c)) (val_main_v9 (F := Ideal) (a1 m c)) := by
  have h10 : Vx m c (Proc.devRef .tc main_v10) = fun _ => Cert.PairSum.pairSum (V m c main_v4) (V m c main_v5) (V m c main_v7) :=
    (Vx_arr m c 4).trans (out_final m c)
  have h8 : Vx m c (Proc.devRef .tc main_v8) = val_main_v8 (F := Ideal) (a1 m c) := (Vx_rest m c main_v8 (by decide)).trans (V_v8 m c)
  have h9 : Vx m c (Proc.devRef .tc main_v9) = val_main_v9 (F := Ideal) (a1 m c) := (Vx_rest m c main_v9 (by decide)).trans (V_v9 m c)
  rw [Vfin_v17, h10, h8, h9, V_v4, V_v5, V_v7]
  -- a constant 1 × 1 array reshaped to a scalar is the constant
  exact congrArg (fun z => epilogue z _ _) (funext fun _ => rfl)

/-- The reference's result as the same function of its two argument arrays. -/
theorem ref_result (x0 : (⟨S16384x2, .f32⟩ : BufTy).Contents (Elt Ideal)) (x1 : (⟨S16384, .i1⟩ : BufTy).Contents (Elt Ideal)) :
    val_main_v33 (F := Ideal) x0 x1
      = epilogue (fun _ => Cert.PairSum.pairSum (val_main_v4 (F := Ideal) x0) (val_main_v5 (F := Ideal) x1) (val_main_v7 (F := Ideal) x1))
          (val_main_v8 (F := Ideal) x1) (val_main_v9 (F := Ideal) x1) := by
  rw [ref_v33, show val_main_v27 (F := Ideal) x0 x1
      = fun _ => Cert.PairSum.pairSum (val_main_v4 (F := Ideal) x0) (val_main_v5 (F := Ideal) x1) (val_main_v7 (F := Ideal) x1)
    from funext fun i => Cert.ReferenceIdeal.RefValue.total_eq x0 x1 i]

end Cert.KernelIdeal.Hand

end
-- ==== Proof.lean ====
/-
  Equivalence of a tiled pairwise-ranking loss kernel and its plain reference over the extended reals.

  From logits the programs form scores `s = logits[:, 1] - logits[:, 0]` and from the labels indicators `pos` and
  `neg = 1 - pos`; the loss is `1 - P / ((∑ pos) · (∑ neg))` where that product is positive and `0` elsewhere, with
  `P = ∑ i j, logistic (s j - s i) · (neg i · pos j)` over all 16384 × 16384 pairs. The reference builds the whole
  array and sums it at once. The kernel walks a 16 × 16 grid of 1024 × 1024 tiles, adding each tile's sum into a 1 × 1
  accumulator that is zeroed at the first grid point and written back after the last. Addition of extended reals is
  commutative and associative, so the accumulated tile sums are the one whole sum; everything before and after the
  pairwise sum is the same host computation in both programs.

  The kernel reads the scores through two windows on one array (rows and columns), so the launch holds that array as
  two half shares; its frames (the word-level program and the idealized one) are proved against the launch theorem with
  the kernel body run symbolically at the first point (reset, then accumulate) and at any later point (accumulate).
  The ideal pass rewrote nothing, so `preserves` is trivial.
-/
import proofs.«171660_j1717986918748_2_alg».proof.Defs
import proofs.«171660_j1717986918748_2_alg».proof.Proof.Gen.Kernel
import proofs.«171660_j1717986918748_2_alg».proof.Proof.Gen.KernelIdeal
import proofs.«171660_j1717986918748_2_alg».proof.Proof.Gen.ReferenceIdeal
import proofs.«171660_j1717986918748_2_alg».proof.Proof.Gen.Pre_finite_inputs
import proofs.«171660_j1717986918748_2_alg».proof.Proof.RefRun
import proofs.«171660_j1717986918748_2_alg».proof.Proof.RefRead
import proofs.«171660_j1717986918748_2_alg».proof.Proof.KernelRun
import proofs.«171660_j1717986918748_2_alg».proof.Proof.KernelIdealRun
import proofs.«171660_j1717986918748_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At the ideal instance both programs, run from memories that agree on the arguments, end with the same result:
    the common epilogue of the pairwise sum and of the two indicator sums. -/
theorem algebraic : Cert.algebraic_KernelIdeal_ReferenceIdeal := by
  intro m ρ m' ρ' _ hagree
  refine ⟨fun c => Cert.KernelIdeal.Hand.epilogue
      (fun _ => Cert.PairSum.pairSum
        (Cert.ReferenceIdeal.ReadP.val_main_v4 (F := Ideal) (Cert.KernelIdeal.Hand.a0 m c))
        (Cert.ReferenceIdeal.ReadP.val_main_v5 (F := Ideal) (Cert.KernelIdeal.Hand.a1 m c))
        (Cert.ReferenceIdeal.ReadP.val_main_v7 (F := Ideal) (Cert.KernelIdeal.Hand.a1 m c)))
      (Cert.ReferenceIdeal.ReadP.val_main_v8 (F := Ideal) (Cert.KernelIdeal.Hand.a1 m c))
      (Cert.ReferenceIdeal.ReadP.val_main_v9 (F := Ideal) (Cert.KernelIdeal.Hand.a1 m c)), ?_, ?_⟩
  · exact (θ_run Cert.KernelIdeal.defs _ _).mono
      (fun _ h c => ⟨(h c).1.trans (Cert.KernelIdeal.Hand.kernel_result m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueP.run (F := Ideal) m' ρ')
    rw [(hagree c).1, (hagree c).2, Cert.ReferenceIdeal.ReadP.val_main_v33_eq]
    exact Cert.KernelIdeal.Hand.ref_result _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
